-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x800000 32) (main_arg2 : FVec F S256x64 .f32) (main_arg3 : FVec F S64 .f32) (main_arg4 : FVec F S64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x256 : Shape := ⟨2, ![100000, 256]⟩
abbrev S2x800000 : Shape := ⟨2, ![2, 800000]⟩
abbrev S256x64 : Shape := ⟨2, ![256, 64]⟩
abbrev S64 : Shape := ⟨1, ![64]⟩
abbrev S100000x64 : Shape := ⟨2, ![100000, 64]⟩
abbrev S5000x256 : Shape := ⟨2, ![5000, 256]⟩
abbrev S5000x64 : Shape := ⟨2, ![5000, 64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x64 : Shape := ⟨2, ![900000, 64]⟩
abbrev S1x64 : Shape := ⟨2, ![1, 64]⟩

abbrev nBuf : Space → Nat
  | .hbm => 77
  | .vmem => 19
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000x64, .f32⟩
  | .hbm, ⟨7, _⟩ => ⟨S100000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S1x800000, .i32⟩
  | .hbm, ⟨12, _⟩ => ⟨S800000, .i32⟩
  | .hbm, ⟨13, _⟩ => ⟨S900000, .i32⟩
  | .hbm, ⟨14, _⟩ => ⟨S_, .f32⟩
  | .hbm, ⟨15, _⟩ => ⟨S900000, .f32⟩
  | .hbm, ⟨16, _⟩ => ⟨S_, .f32⟩
  | .hbm, ⟨17, _⟩ => ⟨S100000, .f32⟩
  | .hbm, ⟨18, _⟩ => ⟨S900000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S900000, .i32⟩
  | .hbm, ⟨30, _⟩ => ⟨S900000, .i1⟩
  | .hbm, ⟨31, _⟩ => ⟨S_, .i32⟩
  | .hbm, ⟨32, _⟩ => ⟨S900000, .i32⟩
  | .hbm, ⟨33, _⟩ => ⟨S900000, .i32⟩
  | .hbm, ⟨34, _⟩ => ⟨S900000, .i32⟩
  | .hbm, ⟨35, _⟩ => ⟨S900000x1, .i32⟩
  | .hbm, ⟨36, _⟩ => ⟨S900000, .f32⟩
  | .hbm, ⟨37, _⟩ => ⟨S_, .i32⟩
  | .hbm, ⟨38, _⟩ => ⟨S900000, .i32⟩
  | .hbm, ⟨39, _⟩ => ⟨S900000, .i1⟩
  | .hbm, ⟨40, _⟩ => ⟨S_, .i32⟩
  | .hbm, ⟨41, _⟩ => ⟨S900000, .i32⟩
  | .hbm, ⟨42, _⟩ => ⟨S900000, .i32⟩
  | .hbm, ⟨43, _⟩ => ⟨S900000, .i32⟩
  | .hbm, ⟨44, _⟩ => ⟨S900000x1, .i32⟩
  | .hbm, ⟨45, _⟩ => ⟨S900000, .f32⟩
  | .hbm, ⟨46, _⟩ => ⟨S900000, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x64, .f32⟩
  | .hbm, ⟨56, _⟩ => ⟨S900000x1, .f32⟩
  | .hbm, ⟨57, _⟩ => ⟨S900000x64, .f32⟩
  | .hbm, ⟨58, _⟩ => ⟨S900000x64, .f32⟩
  | .hbm, ⟨59, _⟩ => ⟨S_, .f32⟩
  | .hbm, ⟨60, _⟩ => ⟨S100000x64, .f32⟩
  | .hbm, ⟨61, _⟩ => ⟨S900000x1, .i32⟩
  | .hbm, ⟨62, _⟩ => ⟨S100000x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S_, .f32⟩
  | .hbm, ⟨69, _⟩ => ⟨S1x64, .f32⟩
  | .hbm, ⟨70, _⟩ => ⟨S1x64, .f32⟩
  | .hbm, ⟨71, _⟩ => ⟨S_, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  dot_S5000x256_S256x64_S5000x64_1_0_0_1_n_n_wf : DotDims.WF S5000x256 S256x64 S5000x64 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S256x64 : Shape := ⟨2, ![256, 64]⟩
abbrev S64 : Shape := ⟨1, ![64]⟩
abbrev S100000x64 : Shape := ⟨2, ![100000, 64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x64 : Shape := ⟨2, ![900000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000x64, .f32⟩
  | .hbm, ⟨7, _⟩ => ⟨S100000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S1x800000, .i32⟩
  | .hbm, ⟨12, _⟩ => ⟨S800000, .i32⟩
  | .hbm, ⟨13, _⟩ => ⟨S900000, .i32⟩
  | .hbm, ⟨14, _⟩ => ⟨S_, .f32⟩
  | .hbm, ⟨15, _⟩ => ⟨S900000, .f32⟩
  | .hbm, ⟨16, _⟩ => ⟨S_, .f32⟩
  | .hbm, ⟨17, _⟩ => ⟨S100000, .f32⟩
  | .hbm, ⟨18, _⟩ => ⟨S900000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S900000, .i32⟩
  | .hbm, ⟨30, _⟩ => ⟨S900000, .i1⟩
  | .hbm, ⟨31, _⟩ => ⟨S_, .i32⟩
  | .hbm, ⟨32, _⟩ => ⟨S900000, .i32⟩
  | .hbm, ⟨33, _⟩ => ⟨S900000, .i32⟩
  | .hbm, ⟨34, _⟩ => ⟨S900000, .i32⟩
  | .hbm, ⟨35, _⟩ => ⟨S900000x1, .i32⟩
  | .hbm, ⟨36, _⟩ => ⟨S900000, .f32⟩
  | .hbm, ⟨37, _⟩ => ⟨S_, .i32⟩
  | .hbm, ⟨38, _⟩ => ⟨S900000, .i32⟩
  | .hbm, ⟨39, _⟩ => ⟨S900000, .i1⟩
  | .hbm, ⟨40, _⟩ => ⟨S_, .i32⟩
  | .hbm, ⟨41, _⟩ => ⟨S900000, .i32⟩
  | .hbm, ⟨42, _⟩ => ⟨S900000, .i32⟩
  | .hbm, ⟨43, _⟩ => ⟨S900000, .i32⟩
  | .hbm, ⟨44, _⟩ => ⟨S900000x1, .i32⟩
  | .hbm, ⟨45, _⟩ => ⟨S900000, .f32⟩
  | .hbm, ⟨46, _⟩ => ⟨S900000, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x64, .f32⟩
  | .hbm, ⟨56, _⟩ => ⟨S900000x1, .f32⟩
  | .hbm, ⟨57, _⟩ => ⟨S900000x64, .f32⟩
  | .hbm, ⟨58, _⟩ => ⟨S900000x64, .f32⟩
  | .hbm, ⟨59, _⟩ => ⟨S_, .f32⟩
  | .hbm, ⟨60, _⟩ => ⟨S100000x64, .f32⟩
  | .hbm, ⟨61, _⟩ => ⟨S900000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  dot_S100000x256_S256x64_S100000x64_1_0_0_1_n_n_wf : DotDims.WF S100000x256 S256x64 S100000x64 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.KernelResult.lean ====
/-
  The idealized kernel program's run with its result named.

  The program is three kernel regions among stretches of host operations. Its generated frame proof carries, through
  every segment, the contents of every buffer that outlives a region; after the last region these are the fold W7 of
  the launch memory through all segments. Read against the final state this gives, besides the six argument arrays
  unchanged, the result array main_v54 at W7's value for it: what the last region's write-backs leave.
-/
import proofs.«181618_j8237747274085_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents for it and the six argument arrays as launched. -/
theorem run : θ_run defs (onTc (τ := τ) (main (F := F))) ⟨m, fun _ => 0, ρ⟩ (fun r => ∀ c : Dev nD,
      r.2.mem ((c.tc : Thread nD τ).loc main_v54) = W7 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v54 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Result

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.LibBatchNorm.lean ====
/-
  Batch normalisation on the extended reals.

  A column y of real numbers, indexed by a finite set s of m = |s| rows, has the mean μ = (Σ y) / m. Its variance can
  be written as the mean of the squares minus the square of the mean, (Σ y²) / m − μ², or as the mean of the squared
  deviations, (Σ (y − μ)²) / m. On the real numbers the two agree (expand the square: Σ (y − μ)² = Σ y² − 2 μ Σ y + m μ²
  and Σ y = m μ). On the extended reals subtraction and multiplication do not obey the ring laws at the infinities, so
  the identity is stated for columns whose entries are images of real numbers and is proved by moving to the reals.

  The second half carries finiteness through one normalisation layer: sums, differences, products and quotients by a
  nonzero real of reals are real; the variance is a real number that is not negative, so the variance plus a positive
  real is positive and its reciprocal square root is real; hence the normalised, scaled, shifted and rectified entry
  is real. A finite sum of reals divided by the larger of a real count and one is real as well.

  The last part is about a sum accumulated step by step: an accumulator that starts from zero plus the first term and
  adds one term at each further step holds the sum of the terms so far.
-/
import Idealize.ShloMosaic.PureOps.Ideal
import Idealize.ShloMosaic.PureOps.Ideal.Laws
import Idealize.ShloMosaic.Lib.ValueIdx
import proofs.«181618_j8237747274085_1_alg».proof.Proof.LibRealSums

open scoped BigOperators
open Idealize.ShloMosaic Cert.RealSums

namespace Cert.BatchNorm

/-! ### Reals are closed under the operations of a normalisation layer -/

/-- The negative of a real is real. -/
theorem isReal_neg {x : EReal} (hx : IsReal x) : IsReal (-x) := by
  obtain ⟨a, rfl⟩ := hx
  exact ⟨-a, (EReal.coe_neg a).symm⟩

/-- The difference of two reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem isReal_max {x y : EReal} (hx : IsReal x) (hy : IsReal y) : IsReal (max x y) := by
  rcases max_choice x y with h | h <;> rw [h] <;> assumption

/-- The quotient of a real a by a nonzero real m is the image of the real quotient a / m. -/
theorem div_coe_coe (a : ℝ) {m : ℝ} (hm : m ≠ 0) : Ideal.div (a : EReal) (m : EReal) = ((a / m : ℝ) : EReal) := by
  rw [Ideal.div_coe hm, ← EReal.coe_mul, mul_one_div]

/-- The quotient of a real by a nonzero real number is real. -/
theorem isReal_div_coe {x : EReal} (hx : IsReal x) {m : ℝ} (hm : m ≠ 0) : IsReal (Ideal.div x (m : EReal)) := by
  obtain ⟨a, rfl⟩ := hx
  exact ⟨a / m, div_coe_coe a hm⟩

/-- The quotient of a real by a real that is not zero is real. -/
theorem isReal_div {x d : EReal} (hx : IsReal x) (hd : IsReal d) (hd0 : d ≠ 0) : IsReal (Ideal.div x d) := by
  obtain ⟨m, rfl⟩ := hd
  exact isReal_div_coe hx (by intro h; exact hd0 (by rw [h, EReal.coe_zero]))

/-- A finite sum of reals is the image of the sum of their real parts. -/
theorem sum_eq_coe {ι : Type*} (s : Finset ι) (y : ι → EReal) (hy : ∀ r ∈ s, IsReal (y r)) :
    ∑ r ∈ s, y r = ((∑ r ∈ s, (y r).toReal : ℝ) : EReal) := by
  rw [← coe_sum]
  exact Finset.sum_congr rfl fun r hr => (hy r hr).eq_coe_toReal

/-- The mean of a finite family of reals over a nonzero real count is the image of the real mean. -/
theorem mean_eq_coe {ι : Type*} (s : Finset ι) (y : ι → EReal) (hy : ∀ r ∈ s, IsReal (y r)) {m : ℝ} (hm0 : m ≠ 0) :
    Ideal.div (∑ r ∈ s, y r) (m : EReal) = (((∑ r ∈ s, (y r).toReal) / m : ℝ) : EReal) := by
  rw [sum_eq_coe s y hy, div_coe_coe _ hm0]

/-! ### The two forms of the variance -/

/-- The mean of the squared deviations from the mean, of a finite family of reals, is the image of the same expression
    over the real numbers. -/
theorem varDev_eq_coe {ι : Type*} (s : Finset ι) (y : ι → EReal) (hy : ∀ r ∈ s, IsReal (y r)) {m : ℝ} (hm0 : m ≠ 0) :
    Ideal.div (∑ r ∈ s, (y r - Ideal.div (∑ r ∈ s, y r) (m : EReal)) * (y r - Ideal.div (∑ r ∈ s, y r) (m : EReal)))
        (m : EReal)
      = (((∑ r ∈ s, ((y r).toReal - (∑ r ∈ s, (y r).toReal) / m) * ((y r).toReal - (∑ r ∈ s, (y r).toReal) / m)) / m : ℝ)
          : EReal) := by
  rw [mean_eq_coe s y hy hm0]
  have h : ∑ r ∈ s, (y r - (((∑ r ∈ s, (y r).toReal) / m : ℝ) : EReal)) * (y r - (((∑ r ∈ s, (y r).toReal) / m : ℝ) : EReal))
      = ((∑ r ∈ s, ((y r).toReal - (∑ r ∈ s, (y r).toReal) / m) * ((y r).toReal - (∑ r ∈ s, (y r).toReal) / m) : ℝ)
          : EReal) := by
    rw [← coe_sum]
    refine Finset.sum_congr rfl fun r hr => ?_
    rw [EReal.coe_mul, EReal.coe_sub, ← (hy r hr).eq_coe_toReal]
  rw [h, div_coe_coe _ hm0]

/-- The mean of the squares minus the square of the mean, of a finite family of reals, is the image of the same
    expression over the real numbers. -/
theorem varSq_eq_coe {ι : Type*} (s : Finset ι) (y : ι → EReal) (hy : ∀ r ∈ s, IsReal (y r)) {m : ℝ} (hm0 : m ≠ 0) :
    Ideal.div (∑ r ∈ s, y r * y r) (m : EReal)
        - Ideal.div (∑ r ∈ s, y r) (m : EReal) * Ideal.div (∑ r ∈ s, y r) (m : EReal)
      = (((∑ r ∈ s, (y r).toReal * (y r).toReal) / m
            - (∑ r ∈ s, (y r).toReal) / m * ((∑ r ∈ s, (y r).toReal) / m) : ℝ) : EReal) := by
  rw [mean_eq_coe s y hy hm0]
  have h : ∑ r ∈ s, y r * y r = ((∑ r ∈ s, (y r).toReal * (y r).toReal : ℝ) : EReal) := by
    rw [← coe_sum]
    refine Finset.sum_congr rfl fun r hr => ?_
    rw [EReal.coe_mul, ← (hy r hr).eq_coe_toReal]
  rw [h, div_coe_coe _ hm0, EReal.coe_sub, EReal.coe_mul]

/-- Over the real numbers: the mean of the squares minus the square of the mean is the mean of the squared deviations,
    for a family indexed by a finite set of m ≠ 0 elements. -/
theorem real_var_eq {ι : Type*} (s : Finset ι) (x : ι → ℝ) {m : ℝ} (hm : m = (s.card : ℝ)) (hm0 : m ≠ 0) :
    (∑ r ∈ s, x r * x r) / m - (∑ r ∈ s, x r) / m * ((∑ r ∈ s, x r) / m)
      = (∑ r ∈ s, (x r - (∑ r ∈ s, x r) / m) * (x r - (∑ r ∈ s, x r) / m)) / m := by
  have hsum : ∀ c : ℝ, ∑ r ∈ s, (x r - c) * (x r - c)
      = (∑ r ∈ s, x r * x r) - 2 * c * (∑ r ∈ s, x r) + (s.card : ℝ) * (c * c) := by
    intro c
    have : ∀ r, (x r - c) * (x r - c) = x r * x r - 2 * c * x r + c * c := fun r => by ring
    simp only [this, Finset.sum_add_distrib, Finset.sum_sub_distrib, ← Finset.mul_sum, Finset.sum_const, nsmul_eq_mul]
    ring
  rw [hsum, ← hm]
  field_simp
  ring

/-- THE TWO VARIANCES AGREE. For a family of reals over a finite set s of m = |s| ≠ 0 rows, the mean of the squares
    minus the square of the mean equals the mean of the squared deviations from the mean, all operations being those of
    the extended reals. -/
theorem var_eq_finset {ι : Type*} (s : Finset ι) (y : ι → EReal) (hy : ∀ r ∈ s, IsReal (y r)) {m : ℝ}
    (hm : m = (s.card : ℝ)) (hm0 : m ≠ 0) :
    Ideal.div (∑ r ∈ s, y r * y r) (m : EReal)
        - Ideal.div (∑ r ∈ s, y r) (m : EReal) * Ideal.div (∑ r ∈ s, y r) (m : EReal)
      = Ideal.div (∑ r ∈ s, (y r - Ideal.div (∑ r ∈ s, y r) (m : EReal)) * (y r - Ideal.div (∑ r ∈ s, y r) (m : EReal)))
          (m : EReal) := by
  rw [varSq_eq_coe s y hy hm0, varDev_eq_coe s y hy hm0, real_var_eq s (fun r => (y r).toReal) hm hm0]

/-- The two variances agree, for a family indexed by a whole finite type of m ≠ 0 elements. -/
theorem var_eq {ι : Type*} [Fintype ι] (y : ι → EReal) (hy : ∀ r, IsReal (y r)) {m : ℝ}
    (hm : m = (Fintype.card ι : ℝ)) (hm0 : m ≠ 0) :
    Ideal.div (∑ r, y r * y r) (m : EReal) - Ideal.div (∑ r, y r) (m : EReal) * Ideal.div (∑ r, y r) (m : EReal)
      = Ideal.div (∑ r, (y r - Ideal.div (∑ r, y r) (m : EReal)) * (y r - Ideal.div (∑ r, y r) (m : EReal))) (m : EReal) :=
  var_eq_finset Finset.univ y (fun r _ => hy r) (by rw [hm, Finset.card_univ]) hm0

/-- The mean of the squared deviations of a family of reals over a positive real count is a real number that is not
    negative. -/
theorem varDev_nonneg {ι : Type*} (s : Finset ι) (y : ι → EReal) (hy : ∀ r ∈ s, IsReal (y r)) {m : ℝ} (hm0 : 0 < m) :
    ∃ v : ℝ, 0 ≤ v ∧
      Ideal.div (∑ r ∈ s, (y r - Ideal.div (∑ r ∈ s, y r) (m : EReal)) * (y r - Ideal.div (∑ r ∈ s, y r) (m : EReal)))
        (m : EReal) = (v : EReal) :=
  ⟨_, div_nonneg (Finset.sum_nonneg fun r _ => mul_self_nonneg _) hm0.le, varDev_eq_coe s y hy hm0.ne'⟩

/-- The mean of the squares minus the square of the mean, of a family of reals over a finite set of m = |s| > 0 rows, is
    a real number that is not negative. -/
theorem varSq_nonneg {ι : Type*} (s : Finset ι) (y : ι → EReal) (hy : ∀ r ∈ s, IsReal (y r)) {m : ℝ}
    (hm : m = (s.card : ℝ)) (hm0 : 0 < m) :
    ∃ v : ℝ, 0 ≤ v ∧
      Ideal.div (∑ r ∈ s, y r * y r) (m : EReal)
        - Ideal.div (∑ r ∈ s, y r) (m : EReal) * Ideal.div (∑ r ∈ s, y r) (m : EReal) = (v : EReal) := by
  rw [var_eq_finset s y hy hm hm0.ne']
  exact varDev_nonneg s y hy hm0

/-! ### The reciprocal square root of the variance plus a positive real -/

/-- The reciprocal square root of a positive real is the image of the real reciprocal square root. -/
theorem rsqrt_coe_of_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_of_pos {v : ℝ} (hv : 0 < v) : IsReal (Ideal.rsqrt (v : EReal)) :=
  ⟨_, rsqrt_coe_of_pos hv⟩

/-- The reciprocal square root of a real that is not negative plus a positive real is real. -/
theorem isReal_rsqrt_add {v e : ℝ} (hv : 0 ≤ v) (he : 0 < e) : IsReal (Ideal.rsqrt ((v : EReal) + (e : EReal))) := by
  rw [← EReal.coe_add]
  exact isReal_rsqrt_of_pos (add_pos_of_nonneg_of_pos hv he)

/-- The reciprocal square root of (mean of squares − square of the mean) + ε is real, for a family of reals over a
    finite set of m = |s| > 0 rows and a positive real ε. -/
theorem isReal_rsqrt_varSq_add {ι : Type*} (s : Finset ι) (y : ι → EReal) (hy : ∀ r ∈ s, IsReal (y r)) {m : ℝ}
    (hm : m = (s.card : ℝ)) (hm0 : 0 < m) {e : ℝ} (he : 0 < e) :
    IsReal (Ideal.rsqrt (Ideal.div (∑ r ∈ s, y r * y r) (m : EReal)
        - Ideal.div (∑ r ∈ s, y r) (m : EReal) * Ideal.div (∑ r ∈ s, y r) (m : EReal) + (e : EReal))) := by
  obtain ⟨v, hv, h⟩ := varSq_nonneg s y hy hm hm0
  rw [h]
  exact isReal_rsqrt_add hv he

/-- The reciprocal square root of (mean of the squared deviations) + ε is real, for a family of reals over a positive
    real count and a positive real ε. -/
theorem isReal_rsqrt_varDev_add {ι : Type*} (s : Finset ι) (y : ι → EReal) (hy : ∀ r ∈ s, IsReal (y r)) {m : ℝ}
    (hm0 : 0 < m) {e : ℝ} (he : 0 < e) :
    IsReal (Ideal.rsqrt (Ideal.div (∑ r ∈ s, (y r - Ideal.div (∑ r ∈ s, y r) (m : EReal))
        * (y r - Ideal.div (∑ r ∈ s, y r) (m : EReal))) (m : EReal) + (e : EReal))) := by
  obtain ⟨v, hv, h⟩ := varDev_nonneg s y hy hm0
  rw [h]
  exact isReal_rsqrt_add hv he

/-! ### The rectified output -/

/-- A selection on the comparison z ≥ 0 is a case distinction on 0 ≤ z. -/
theorem select_cmp_oge_zero {α : Type} (z : EReal) (a b : α) :
    Scalar.select (Ideal.cmp .oge z 0) a b = if 0 ≤ z then a else b := by
  by_cases h : (0 : EReal) ≤ z
  · rw [if_pos h]
    have : Ideal.cmp .oge z 0 = 1#1 := by simp [Ideal.cmp, h]
    rw [this]; exact if_pos rfl
  · rw [if_neg h]
    have : Ideal.cmp .oge z 0 = 0#1 := by simp [Ideal.cmp, h]
    rw [this]; exact if_neg (by decide)

/-- A selection between two reals is real, whatever the condition. -/
theorem isReal_select (c : BitVec 1) {a b : EReal} (ha : IsReal a) (hb : IsReal b) : IsReal (Scalar.select c a b) := by
  unfold Scalar.select
  split <;> assumption

/-- The leaky rectifier of a real with a real slope is real: z where z ≥ 0, slope · z elsewhere. -/
theorem isReal_prelu {z a : EReal} (hz : IsReal z) (ha : IsReal a) :
    IsReal (Scalar.select (Ideal.cmp .oge z 0) z (a * z)) :=
  isReal_select _ hz (ha.mul hz)

/-- The normalised, scaled and shifted entry (y − μ) · ρ · γ + β is real when its five constituents are. -/
theorem isReal_affine {y μ ρ γ β : EReal} (hy : IsReal y) (hμ : IsReal μ) (hρ : IsReal ρ) (hγ : IsReal γ)
    (hβ : IsReal β) : IsReal ((y - μ) * ρ * γ + β) :=
  (((isReal_sub hy hμ).mul hρ).mul hγ).add hβ

/-- The output of a normalisation layer with a leaky rectifier, prelu ((y − μ) · ρ · γ + β), is real when its
    constituents and the slope are. -/
theorem isReal_bn_prelu {y μ ρ γ β a : EReal} (hy : IsReal y) (hμ : IsReal μ) (hρ : IsReal ρ) (hγ : IsReal γ)
    (hβ : IsReal β) (ha : IsReal a) :
    IsReal (Scalar.select (Ideal.cmp .oge ((y - μ) * ρ * γ + β) 0) ((y - μ) * ρ * γ + β) (a * ((y - μ) * ρ * γ + β))) :=
  isReal_prelu (isReal_affine hy hμ hρ hγ hβ) ha

/-! ### A sum of reals divided by a count that is at least one -/

/-- A finite sum of reals divided by the larger of a real count and one is real. -/
theorem isReal_sum_div_max_one {ι : Type*} (s : Finset ι) (a : ι → EReal) (ha : ∀ i ∈ s, IsReal (a i)) {c : EReal}
    (hc : IsReal c) : IsReal (Ideal.div (∑ i ∈ s, a i) (max c 1)) := by
  refine isReal_div (isReal_sum s a ha) (isReal_max hc isReal_one) ?_
  exact (lt_of_lt_of_le zero_lt_one (le_max_right c 1)).ne'

/-- A real divided by the larger of a real count and one is real. -/
theorem isReal_div_max_one {x c : EReal} (hx : IsReal x) (hc : IsReal c) : IsReal (Ideal.div x (max c 1)) :=
  isReal_div hx (isReal_max hc isReal_one) (lt_of_lt_of_le zero_lt_one (le_max_right c 1)).ne'

/-! ### A sum accumulated step by step -/

/-- An accumulator that holds zero plus the first term after step 0 and adds the next term at every further step below
    N holds, after step n < N, the sum of the terms 0 … n. -/
theorem acc_eq_sum_range {β : Type*} [AddCommMonoid β] (acc g : ℕ → β) (N : ℕ) (h0 : acc 0 = 0 + g 0)
    (hs : ∀ n, n + 1 < N → acc (n + 1) = acc n + g (n + 1)) :
    ∀ n, n < N → acc n = ∑ t ∈ Finset.range (n + 1), g t := by
  intro n
  induction n with
  | zero => intro _; rw [h0, zero_add, Finset.sum_range_one]
  | succ k ih =>
    intro hk
    rw [hs k hk, ih (Nat.lt_of_succ_lt hk), Finset.sum_range_succ _ (k + 1)]

/-- After the last of N > 0 steps the accumulator holds the sum of all N terms. -/
theorem acc_last_eq_sum {β : Type*} [AddCommMonoid β] (acc g : ℕ → β) (N : ℕ) (hN : 0 < N) (h0 : acc 0 = 0 + g 0)
    (hs : ∀ n, n + 1 < N → acc (n + 1) = acc n + g (n + 1)) :
    acc (N - 1) = ∑ t ∈ Finset.range N, g t := by
  rw [acc_eq_sum_range acc g N h0 hs (N - 1) (Nat.sub_lt hN Nat.one_pos), Nat.sub_add_cancel hN]

/-- The same for an accumulator of extended reals whose first step adds the first term to the single-precision zero
    pattern, which denotes zero. -/
theorem acc_eq_sum_range_f32 (acc g : ℕ → EReal) (N : ℕ) (h0 : acc 0 = Ideal.ofBits .f32 0x00000000#32 + g 0)
    (hs : ∀ n, n + 1 < N → acc (n + 1) = acc n + g (n + 1)) :
    ∀ n, n < N → acc n = ∑ t ∈ Finset.range (n + 1), g t :=
  acc_eq_sum_range acc g N (by rw [h0, Ideal.ofBits_zero_f32]) hs

end Cert.BatchNorm
-- ==== Proof.LibConsts.lean ====
/-
  The single-precision constants of a normalisation network, as real numbers.

  A single-precision pattern with sign 0, exponent field E (neither 0 nor 255) and fraction field T denotes the real
  (2²³ + T) · 2^(E − 150). The patterns below are the counts 600000, 50000 and 32, the numbers 0.5 and (in the library
  already) 0 and 1, and the pattern nearest to 10⁻⁵, which is 10995116 / 2⁴⁰, a positive real. The pattern with exponent
  field 255 and fraction field 0 denotes +∞.
-/
import Idealize.ShloMosaic.PureOps.Ideal
import Idealize.ShloMosaic.PureOps.Ideal.Laws

open Idealize.ShloMosaic

namespace Cert.BatchNorm.Consts

/-- The single-precision pattern 0x49127C00 denotes the real 600000. -/
theorem ofBits_600000 : Ideal.ofBits .f32 0x49127C00#32 = ((600000 : ℝ) : EReal) := by
  simp [Ideal.ofBits, Ideal.ieee, -EReal.coe_mul]; norm_num

/-- The single-precision pattern 0x47435000 denotes the real 50000. -/
theorem ofBits_50000 : Ideal.ofBits .f32 0x47435000#32 = ((50000 : ℝ) : EReal) := by
  simp [Ideal.ofBits, Ideal.ieee, -EReal.coe_mul]; norm_num

/-- The single-precision pattern 0x42000000 denotes the real 32. -/
theorem ofBits_32 : Ideal.ofBits .f32 0x42000000#32 = ((32 : ℝ) : EReal) := by
  simp [Ideal.ofBits, Ideal.ieee, -EReal.coe_mul]; norm_num

/-- The single-precision pattern 0x3F000000 denotes the real one half. -/
theorem ofBits_half : Ideal.ofBits .f32 0x3F000000#32 = ((1 / 2 : ℝ) : EReal) := by
  simp [Ideal.ofBits, Ideal.ieee, -EReal.coe_mul]; norm_num

/-- The single-precision pattern 0x3F800000 denotes the real one. -/
theorem ofBits_one : Ideal.ofBits .f32 0x3F800000#32 = ((1 : ℝ) : EReal) := by
  simp [Ideal.ofBits, Ideal.ieee, -EReal.coe_mul]; norm_num

/-- The single-precision pattern 0x00000000 denotes the real zero. -/
theorem ofBits_zero : Ideal.ofBits .f32 0x00000000#32 = ((0 : ℝ) : EReal) := by
  rw [Ideal.ofBits_zero_f32, EReal.coe_zero]

/-- The single-precision pattern 0x3727C5AC (the nearest to 10⁻⁵) denotes the real 10995116 / 2⁴⁰. -/
theorem ofBits_eps : Ideal.ofBits .f32 0x3727C5AC#32 = ((10995116 / 2 ^ 40 : ℝ) : EReal) := by
  simp [Ideal.ofBits, Ideal.ieee, -EReal.coe_mul]; norm_num

/-- The single-precision pattern 0x7F800000 denotes +∞. -/
theorem ofBits_inf : Ideal.ofBits .f32 0x7F800000#32 = ⊤ := by
  simp [Ideal.ofBits, Ideal.ieee]

/-- The real the pattern 0x3727C5AC denotes is positive. -/
theorem eps_pos : (0 : ℝ) < 10995116 / 2 ^ 40 := by norm_num

end Cert.BatchNorm.Consts
-- ==== Proof.LibAllReal.lean ====
/-
  Every entry is a real number: a property of arrays of extended reals, carried through the operations of a network.

  An array over a shape is a function from the shape's indices to the extended reals. It is called all-real here when
  every entry is the image of a real number. The lemmas below say that each operation that sits between the layers of a
  message-passing network keeps that property:

  · entrywise sums, differences, products, maxima, quotients by nonzero reals, format changes (the identity on the
    extended reals), integer-to-float conversions, selections;
  · constants whose pattern denotes a real, and anything that only re-indexes its operand: broadcasts, shape casts,
    slices, gathers (every entry of the result is an entry of the operand);
  · concatenations (every entry of the result is an entry of one of the blocks);
  · accumulating scatters, sums over axes, matrix products (an entry plus a finite sum of entries, or of products);
  · reciprocal square roots of arrays whose entries are positive reals.

  Two companions: an array is all-nonnegative / all-positive when every entry is the image of a real ≥ 0 / > 0. A
  nonnegative array plus a positive one is positive, which is what the variance plus a small positive constant needs
  before its reciprocal square root is taken.
-/
import Idealize.ShloMosaic.PureOps
import Idealize.ShloMosaic.PureOps.Ideal
import Idealize.ShloMosaic.PureOps.Ideal.Laws
import Idealize.ShloMosaic.Lib.ValueIdx
import Idealize.ShloMosaic.Lib.ReduceAll
import proofs.«181618_j8237747274085_1_alg».proof.Proof.LibRealSums
import proofs.«181618_j8237747274085_1_alg».proof.Proof.LibBatchNorm
import proofs.«181618_j8237747274085_1_alg».proof.Proof.LibConsts

open scoped BigOperators
open Idealize.ShloMosaic Cert.RealSums Cert.BatchNorm

namespace Cert.AllReal

/-- Every entry of the array is the image of a real number. -/
def AllReal {S : Shape} (v : S.Idx → EReal) : Prop := ∀ i, IsReal (v i)

/-- Every entry of the array is the image of a real number that is not negative. -/
def AllNonneg {S : Shape} (v : S.Idx → EReal) : Prop := ∀ i, ∃ r : ℝ, 0 ≤ r ∧ v i = (r : EReal)

/-- Every entry of the array is the image of a positive real number. -/
def AllPos {S : Shape} (v : S.Idx → EReal) : Prop := ∀ i, ∃ r : ℝ, 0 < r ∧ v i = (r : EReal)

section Basics
variable {S : Shape}

/-- An all-nonnegative array is all-real. -/
theorem AllNonneg.allReal {v : S.Idx → EReal} (h : AllNonneg v) : AllReal v :=
  fun i => let ⟨r, _, hr⟩ := h i; ⟨r, hr⟩

/-- An all-positive array is all-real. -/
theorem AllPos.allReal {v : S.Idx → EReal} (h : AllPos v) : AllReal v :=
  fun i => let ⟨r, _, hr⟩ := h i; ⟨r, hr⟩

/-- An all-positive array is all-nonnegative. -/
theorem AllPos.allNonneg {v : S.Idx → EReal} (h : AllPos v) : AllNonneg v :=
  fun i => let ⟨r, h0, hr⟩ := h i; ⟨r, h0.le, hr⟩

/-- No entry of an all-positive array is zero. -/
theorem AllPos.ne_zero {v : S.Idx → EReal} (h : AllPos v) (i : S.Idx) : v i ≠ 0 := by
  obtain ⟨r, h0, hr⟩ := h i
  rw [hr]
  exact_mod_cast h0.ne'

/-- RE-INDEXING. An array that reads an all-real array at some index of it, whatever the index, is all-real. -/
theorem allReal_comp {T : Shape} {x : S.Idx → EReal} (hx : AllReal x) (f : T.Idx → S.Idx) : AllReal fun j => x (f j) :=
  fun j => hx (f j)

/-- Re-indexing keeps positivity. -/
theorem allPos_comp {T : Shape} {x : S.Idx → EReal} (hx : AllPos x) (f : T.Idx → S.Idx) : AllPos fun j => x (f j) :=
  fun j => hx (f j)

/-- Re-indexing keeps nonnegativity. -/
theorem allNonneg_comp {T : Shape} {x : S.Idx → EReal} (hx : AllNonneg x) (f : T.Idx → S.Idx) :
    AllNonneg fun j => x (f j) :=
  fun j => hx (f j)

end Basics

/-! ### Entrywise operations -/

section Elementwise
variable {s : Shape} {φ : FTy}

/-- The entrywise sum of two all-real arrays is all-real. -/
theorem allReal_addf {x y : FVec Ideal s φ} (hx : AllReal x) (hy : AllReal y) : AllReal (addf x y) :=
  fun i => (hx i).add (hy i)

/-- The entrywise difference of two all-real arrays is all-real. -/
theorem allReal_subf {x y : FVec Ideal s φ} (hx : AllReal x) (hy : AllReal y) : AllReal (subf x y) :=
  fun i => isReal_sub (hx i) (hy i)

/-- The entrywise product of two all-real arrays is all-real. -/
theorem allReal_mulf {x y : FVec Ideal s φ} (hx : AllReal x) (hy : AllReal y) : AllReal (mulf x y) :=
  fun i => (hx i).mul (hy i)

/-- The entrywise negative of an all-real array is all-real. -/
theorem allReal_negf {x : FVec Ideal s φ} (hx : AllReal x) : AllReal (negf x) :=
  fun i => isReal_neg (hx i)

/-- The entrywise maximum of two all-real arrays is all-real. -/
theorem allReal_maximumf {x y : FVec Ideal s φ} (hx : AllReal x) (hy : AllReal y) : AllReal (maximumf x y) :=
  fun i => isReal_max (hx i) (hy i)

/-- The host's entrywise quotient of an all-real array by an all-real array without a zero entry is all-real. -/
theorem allReal_hostDivf {x d : FVec Ideal s φ} (hx : AllReal x) (hd : AllReal d) (hd0 : ∀ i, d i ≠ 0) :
    AllReal (Host.divf x d) :=
  fun i => isReal_div (hx i) (hd i) (hd0 i)

/-- A kernel's entrywise quotient of an all-real array by an all-real array without a zero entry is all-real. -/
theorem allReal_divf {x d : FVec Ideal s φ} (hx : AllReal x) (hd : AllReal d) (hd0 : ∀ i, d i ≠ 0) :
    AllReal (divf x d) :=
  fun i => isReal_div (hx i) (hd i) (hd0 i)

/-- The entrywise maximum of an all-real array and an all-positive array is all-positive (a count raised to at least
    one). -/
theorem allPos_maximumf_right {x y : FVec Ideal s φ} (hx : AllReal x) (hy : AllPos y) : AllPos (maximumf x y) := by
  intro i
  obtain ⟨a, ha⟩ := hx i
  obtain ⟨b, hb0, hb⟩ := hy i
  refine ⟨max a b, lt_of_lt_of_le hb0 (le_max_right a b), ?_⟩
  show max (x i) (y i) = _
  rw [ha, hb]
  rcases le_total a b with h | h
  · rw [max_eq_right h, max_eq_right (EReal.coe_le_coe_iff.mpr h)]
  · rw [max_eq_left h, max_eq_left (EReal.coe_le_coe_iff.mpr h)]

/-- The sum of an all-nonnegative array and an all-positive array is all-positive. -/
theorem allPos_addf {x y : FVec Ideal s φ} (hx : AllNonneg x) (hy : AllPos y) : AllPos (addf x y) := by
  intro i
  obtain ⟨a, ha0, ha⟩ := hx i
  obtain ⟨b, hb0, hb⟩ := hy i
  refine ⟨a + b, add_pos_of_nonneg_of_pos ha0 hb0, ?_⟩
  show x i + y i = _
  rw [ha, hb, EReal.coe_add]

/-- A narrowing format change is the identity on the extended reals. -/
theorem truncf_eq (ψ : FTy) (x : FVec Ideal s φ) (h : ψ.bits < φ.bits) : (truncf ψ x h : s.Idx → EReal) = x := rfl

/-- A widening format change is the identity on the extended reals. -/
theorem extf_eq (ψ : FTy) (x : FVec Ideal s φ) (h : φ.bits < ψ.bits) : (extf ψ x h : s.Idx → EReal) = x := rfl

/-- A narrowing format change keeps an array all-real. -/
theorem allReal_truncf (ψ : FTy) {x : FVec Ideal s φ} (h : ψ.bits < φ.bits) (hx : AllReal x) : AllReal (truncf ψ x h) :=
  hx

/-- A widening format change keeps an array all-real. -/
theorem allReal_extf (ψ : FTy) {x : FVec Ideal s φ} (h : φ.bits < ψ.bits) (hx : AllReal x) : AllReal (extf ψ x h) :=
  hx

/-- An array of signed integers converted to floats is all-real: each entry is the integer itself. -/
theorem allReal_sitofp {w : Nat} (x : IVec s w) : AllReal (sitofp (F := Ideal) φ x) :=
  fun i => ⟨((x i).toInt : ℝ), rfl⟩

/-- A selection between two all-real arrays is all-real, whatever the mask. -/
theorem allReal_select (c : IVec s 1) {a b : FVec Ideal s φ} (ha : AllReal a) (hb : AllReal b) :
    AllReal (select c a b) :=
  fun i => isReal_select (c i) (ha i) (hb i)

/-- The leaky rectifier of an all-real array with an all-real slope array is all-real: z where z ≥ 0, slope · z
    elsewhere, the comparison being against any array. -/
theorem allReal_prelu (p : CmpFPredicate) {z a zero : FVec Ideal s φ} (hz : AllReal z) (ha : AllReal a) :
    AllReal (select (cmpf p z zero) z (mulf a z)) :=
  allReal_select _ hz (allReal_mulf ha hz)

/-- The reciprocal square root (a kernel's) of an all-positive array is all-real. -/
theorem allReal_rsqrt {x : FVec Ideal s φ} (hx : AllPos x) : AllReal (rsqrt x) := by
  intro i
  obtain ⟨r, h0, hr⟩ := hx i
  show IsReal (Ideal.rsqrt (x i))
  rw [hr]
  exact isReal_rsqrt_of_pos h0

/-- The reciprocal square root (the host's) of an all-positive array is all-real. -/
theorem allReal_hostRsqrt {x : FVec Ideal s φ} (hx : AllPos x) : AllReal (Host.rsqrt x) := by
  intro i
  obtain ⟨r, h0, hr⟩ := hx i
  show IsReal (Ideal.rsqrt (x i))
  rw [hr]
  exact isReal_rsqrt_of_pos h0

end Elementwise

/-! ### Constants and re-indexings -/

section Layout
variable {s t : Shape}

/-- The splat of a pattern that denotes a real is all-real. -/
theorem allReal_constant (s : Shape) (φ : FTy) (b : BitVec φ.bits) (hb : IsReal (Ideal.ofBits φ b)) :
    AllReal (constant (F := Ideal) s φ b) :=
  fun _ => hb

/-- The splat of a pattern that denotes a positive real is all-positive. -/
theorem allPos_constant (s : Shape) (φ : FTy) (b : BitVec φ.bits) {r : ℝ} (h0 : 0 < r)
    (hb : Ideal.ofBits φ b = (r : EReal)) : AllPos (constant (F := Ideal) s φ b) :=
  fun _ => ⟨r, h0, hb⟩

/-- The splat of a real scalar is all-real. -/
theorem allReal_broadcast (t : Shape) {x : EReal} (hx : IsReal x) : AllReal (broadcast t x) :=
  fun _ => hx

/-- A broadcast along named axes of an all-real array is all-real. -/
theorem allReal_broadcastInDim (t : Shape) (dims : Fin s.rank → Fin t.rank) (h : s.BroadcastsInDim t dims)
    {x : s.Idx → EReal} (hx : AllReal x) : AllReal (broadcastInDim t dims h x) :=
  fun _ => hx _

/-- A broadcast along named axes of an all-positive array is all-positive. -/
theorem allPos_broadcastInDim (t : Shape) (dims : Fin s.rank → Fin t.rank) (h : s.BroadcastsInDim t dims)
    {x : s.Idx → EReal} (hx : AllPos x) : AllPos (broadcastInDim t dims h x) :=
  fun _ => hx _

/-- A broadcast along named axes of an all-nonnegative array is all-nonnegative. -/
theorem allNonneg_broadcastInDim (t : Shape) (dims : Fin s.rank → Fin t.rank) (h : s.BroadcastsInDim t dims)
    {x : s.Idx → EReal} (hx : AllNonneg x) : AllNonneg (broadcastInDim t dims h x) :=
  fun _ => hx _

/-- A broadcast of the splat of a pattern that denotes a real is all-real. -/
theorem allReal_broadcastInDim_constant (t : Shape) (dims : Fin s.rank → Fin t.rank) (h : s.BroadcastsInDim t dims)
    (φ : FTy) (b : BitVec φ.bits) (hb : IsReal (Ideal.ofBits φ b)) :
    AllReal (broadcastInDim t dims h (constant (F := Ideal) s φ b)) :=
  allReal_broadcastInDim t dims h (allReal_constant s φ b hb)

/-- A broadcast to trailing axes of an all-real array is all-real. -/
theorem allReal_broadcastTo (t : Shape) {x : s.Idx → EReal} (h : s.Broadcasts t) (hx : AllReal x) :
    AllReal (broadcastTo t x h) :=
  fun _ => hx _

/-- A shape cast of an all-real array is all-real. -/
theorem allReal_shapeCast (t : Shape) {x : s.Idx → EReal} (h : s.ShapeCasts t) (hx : AllReal x) :
    AllReal (shapeCast t x h) :=
  fun _ => hx _

/-- A shape cast of an all-positive array is all-positive. -/
theorem allPos_shapeCast (t : Shape) {x : s.Idx → EReal} (h : s.ShapeCasts t) (hx : AllPos x) :
    AllPos (shapeCast t x h) :=
  fun _ => hx _

/-- A shape cast of an all-nonnegative array is all-nonnegative. -/
theorem allNonneg_shapeCast (t : Shape) {x : s.Idx → EReal} (h : s.ShapeCasts t) (hx : AllNonneg x) :
    AllNonneg (shapeCast t x h) :=
  fun _ => hx _

/-- A slice of an all-real array is all-real. -/
theorem allReal_extractStridedSlice (t : Shape) (off : Fin s.rank → Nat) {x : s.Idx → EReal} (h : s.Slices off t)
    (hx : AllReal x) : AllReal (extractStridedSlice t off x h) :=
  fun _ => hx _

/-- A gather out of an all-real array is all-real, whatever the dimension numbers and the indices: every entry of the
    result is an entry of the operand. -/
theorem allReal_gather {si : Shape} {w : Nat} (d : GatherDims s si t) {x : s.Idx → EReal} (idx : IVec si w)
    (hx : AllReal x) : AllReal (Host.gather d x idx) :=
  fun _ => hx _

/-- A concatenation of all-real blocks is all-real, whatever the number of blocks and the axis: every entry of the
    result is an entry of one of the blocks. -/
theorem allReal_concatenate (t : Shape) (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

/-- Two all-real blocks side by side are all-real. -/
theorem allReal_concatenate_two (t : Shape) (a : Fin t.rank) {s1 s2 : Shape} {u0 : s1.Idx → EReal} {u1 : s2.Idx → EReal}
    (h : Shape.Concatenates [s1, s2] t a) (h0 : AllReal u0) (h1 : AllReal u1) :
    AllReal (concatenate t a [⟨s1, u0⟩, ⟨s2, u1⟩] h) := by
  refine allReal_concatenate t a [⟨s1, u0⟩, ⟨s2, u1⟩] h fun p hp => ?_
  rcases List.mem_cons.mp hp with rfl | hp
  · exact h0
  rcases List.mem_cons.mp hp with rfl | hp
  · exact h1
  exact absurd hp List.not_mem_nil

/-- Three all-real blocks side by side are all-real. -/
theorem allReal_concatenate_three (t : Shape) (a : Fin t.rank) {s1 s2 s3 : Shape} {u0 : s1.Idx → EReal}
    {u1 : s2.Idx → EReal} {u2 : s3.Idx → EReal} (h : Shape.Concatenates [s1, s2, s3] t a) (h0 : AllReal u0)
    (h1 : AllReal u1) (h2 : AllReal u2) : AllReal (concatenate t a [⟨s1, u0⟩, ⟨s2, u1⟩, ⟨s3, u2⟩] h) := by
  refine allReal_concatenate t a [⟨s1, u0⟩, ⟨s2, u1⟩, ⟨s3, u2⟩] h fun p hp => ?_
  rcases List.mem_cons.mp hp with rfl | hp
  · exact h0
  rcases List.mem_cons.mp hp with rfl | hp
  · exact h1
  rcases List.mem_cons.mp hp with rfl | hp
  · exact h2
  exact absurd hp List.not_mem_nil

end Layout

/-! ### Sums: scatters, reductions, products -/

section Sums
variable {s t : Shape} {φ : FTy}

/-- An accumulating scatter of all-real updates into an all-real operand is all-real, whatever the dimension numbers
    and the indices: every entry of the result is an entry of the operand plus a finite sum of updates. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (isReal_sum _ _ fun j _ => hu j)

/-- The host's sum over axes of an all-real array, from a real initial value, is all-real. -/
theorem allReal_hostReduceAdd {axes : List (Fin s.rank)} {u : Shape} {x : FVec Ideal s φ} {init : u.Idx → Ideal φ}
    (h : s.ReducesTo axes t) (hu : 0 < u.numel) (hx : AllReal x) (hinit : ∀ i, IsReal (init i)) :
    AllReal (Host.reduceAdd x init h hu) := by
  intro j
  show IsReal (Ideal.hostReduceAdd h x (init (Shape.Idx.first hu)) j)
  unfold Ideal.hostReduceAdd
  exact (hinit _).add (isReal_sum _ _ fun i _ => hx i)

/-- A kernel's sum over axes of an all-real array is all-real. -/
theorem allReal_multiReduction_add (axes : List (Fin s.rank)) (t : Shape) {src : FVec Ideal s φ} (acc : BitVec φ.bits)
    (h : s.Reduces axes t) (hφ : FKind.Formats φ) (hacc : acc = FKind.neutral .add φ hφ) (hx : AllReal src) :
    AllReal (multiReduction .add axes t src acc h hφ hacc) := by
  intro j
  show IsReal (Ideal.reduceAdd h src j)
  unfold Ideal.reduceAdd
  exact isReal_sum _ _ fun i _ => hx i

/-- A matrix unit's product of all-real operands onto an all-real accumulator is all-real, whatever the dimension
    numbers: every entry is an accumulator entry plus a finite sum of products. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (hacc : AllReal acc) : AllReal (matmul d prec lhs rhs acc) := by
  intro j
  show IsReal (FloatOps.matmul d prec lhs rhs acc j)
  rw [Ideal.matmul_apply]
  exact (hacc j).add (isReal_sum _ _ fun k _ => (hl _).mul (hr _))

/-- A matrix unit's product of all-real operands onto the zero splat is all-real. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (matmul d prec lhs rhs (constant (F := Ideal) so .f32 0x00000000#32)) :=
  allReal_matmul d prec hl hr (allReal_constant so .f32 _ ⟨0, by rw [Ideal.ofBits_zero_f32, EReal.coe_zero]⟩)

/-- The host's general product of all-real operands is all-real, whatever the dimension numbers. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := by
  intro j
  show IsReal (FloatOps.dotGeneral d prec .single lhs rhs j)
  rw [Ideal.dotGeneral_apply]
  exact isReal_sum _ _ fun k _ => (hl _).mul (hr _)

end Sums

/-! ### The constants of the network -/

section Consts
open Cert.BatchNorm.Consts

/-- The pattern of 0 denotes a real. -/
theorem isReal_ofBits_zero : IsReal (Ideal.ofBits .f32 0x00000000#32) := ⟨_, ofBits_zero⟩
/-- The pattern of 0.5 denotes a real. -/
theorem isReal_ofBits_half : IsReal (Ideal.ofBits .f32 0x3F000000#32) := ⟨_, ofBits_half⟩
/-- The pattern of 1 denotes a real. -/
theorem isReal_ofBits_one : IsReal (Ideal.ofBits .f32 0x3F800000#32) := ⟨_, ofBits_one⟩
/-- The pattern of 600000 denotes a real. -/
theorem isReal_ofBits_600000 : IsReal (Ideal.ofBits .f32 0x49127C00#32) := ⟨_, ofBits_600000⟩
/-- The pattern of 50000 denotes a real. -/
theorem isReal_ofBits_50000 : IsReal (Ideal.ofBits .f32 0x47435000#32) := ⟨_, ofBits_50000⟩
/-- The pattern of 32 denotes a real. -/
theorem isReal_ofBits_32 : IsReal (Ideal.ofBits .f32 0x42000000#32) := ⟨_, ofBits_32⟩
/-- The pattern nearest to 10⁻⁵ denotes a real. -/
theorem isReal_ofBits_eps : IsReal (Ideal.ofBits .f32 0x3727C5AC#32) := ⟨_, ofBits_eps⟩

/-- The pattern of 1 denotes a nonzero number. -/
theorem ofBits_one_ne_zero : Ideal.ofBits .f32 0x3F800000#32 ≠ 0 := by
  rw [ofBits_one, EReal.coe_one]; exact one_ne_zero
/-- The pattern of 600000 denotes a nonzero number. -/
theorem ofBits_600000_ne_zero : Ideal.ofBits .f32 0x49127C00#32 ≠ 0 := by
  rw [ofBits_600000]; exact_mod_cast (by norm_num : (600000 : ℝ) ≠ 0)
/-- The pattern of 50000 denotes a nonzero number. -/
theorem ofBits_50000_ne_zero : Ideal.ofBits .f32 0x47435000#32 ≠ 0 := by
  rw [ofBits_50000]; exact_mod_cast (by norm_num : (50000 : ℝ) ≠ 0)
/-- The pattern of 32 denotes a nonzero number. -/
theorem ofBits_32_ne_zero : Ideal.ofBits .f32 0x42000000#32 ≠ 0 := by
  rw [ofBits_32]; exact_mod_cast (by norm_num : (32 : ℝ) ≠ 0)

/-- The splat of the pattern nearest to 10⁻⁵ is all-positive. -/
theorem allPos_constant_eps (s : Shape) : AllPos (constant (F := Ideal) s .f32 0x3727C5AC#32) :=
  allPos_constant s .f32 _ eps_pos ofBits_eps

/-- The splat of the pattern of 1 is all-positive. -/
theorem allPos_constant_one (s : Shape) : AllPos (constant (F := Ideal) s .f32 0x3F800000#32) :=
  allPos_constant s .f32 _ one_pos ofBits_one

end Consts

/-! ### From a finiteness test to all-real -/

section Finite
variable {s : Shape} {φ : FTy}

/-- An extended real whose absolute value is below +∞ is real. -/
theorem isReal_of_abs_lt_top {x : EReal} (h : max x (-x) < ⊤) : IsReal x := by
  induction x using EReal.rec with
  | bot => simp at h
  | coe r => exact ⟨r, rfl⟩
  | top => simp at h

/-- An extended real that passes the test |x| < +∞ is real. -/
theorem isReal_of_cmp_olt_abs {x top : EReal} (htop : top = ⊤) (h : Ideal.cmp .olt (max x (-x)) top = 1#1) :
    IsReal x := by
  subst htop
  apply isReal_of_abs_lt_top
  by_contra hn
  simp [Ideal.cmp, hn] at h

/-- An array every entry of which passes the test |x| < +∞ is all-real. -/
theorem allReal_of_finite_mask {x inf : FVec Ideal s φ} (hinf : ∀ i, inf i = ⊤)
    (h : ∀ i, cmpf .olt (Host.absf x) inf i = 1#1) : AllReal x :=
  fun i => isReal_of_cmp_olt_abs (hinf i) (h i)

/-- An array for which the conjunction over all entries of the test |x| < +∞ came out true is all-real. -/
theorem allReal_of_all_finite {t u : Shape} {axes : List (Fin s.rank)} [Subsingleton t.Idx] {x inf : FVec Ideal s φ}
    (hinf : ∀ i, inf i = ⊤) (init : u.Idx → BitVec 1) (h : s.ReducesTo axes t) (hu : 0 < u.numel) (j : t.Idx)
    (e : Host.reduce IntOp.andi (cmpf .olt (Host.absf x) inf) init h hu j = 1#1) : AllReal x :=
  allReal_of_finite_mask hinf (Host.reduce_andi_all _ init h hu j e)

/-- The broadcast of the splat of the pattern of +∞ is +∞ everywhere. -/
theorem broadcastInDim_constant_inf {s0 : Shape} (dims : Fin s0.rank → Fin s.rank) (h : s0.BroadcastsInDim s dims)
    (i : s.Idx) : broadcastInDim s dims h (constant (F := Ideal) s0 .f32 0x7F800000#32) i = ⊤ :=
  Cert.BatchNorm.Consts.ofBits_inf

end Finite

end Cert.AllReal
-- ==== Proof.Aggregate.lean ====
/-
  The edge aggregation of a graph convolution with self loops and symmetric normalisation, as ONE function of the
  projected node rows h (100000 × 64) and the edge array ei (2 × 800000 integers), and the fact that it maps real
  rows to real rows.

  Row 0 of ei holds the sources and row 1 the targets of 800000 edges; to both the 100000 self loops (0, 1, 2, …) are
  appended, giving 900000 messages. The degree of a node is the number of messages whose target it is (a sum of ones
  scattered into a zero array); its factor d is deg^(−1/2) where deg > 0 and 0 elsewhere. A message from s to t carries
  the row h(s) scaled by d(s) · d(t) (negative indices are first wrapped by adding 100000, as an array lookup does), and
  the aggregate is the sum of the messages scattered onto their targets, starting from zero.

  Every entry of the aggregate is a finite sum of products of entries of h with factors d, and every d is real: it is
  either 0 or the reciprocal square root of a positive real (a degree is a finite sum of ones, hence real). So if every
  entry of h is real, every entry of the aggregate is.

  The function is stated over the literal shapes; the side conditions its operations ask of those shapes are collected
  in one proposition-valued record, so that any two ways of supplying them give the same function.
-/
import Idealize.ShloMosaic.PureOps
import Idealize.ShloMosaic.PureOps.Ideal
import Idealize.ShloMosaic.PureOps.Ideal.Laws
import Idealize.ShloMosaic.Lib.ValueIdx
import proofs.«181618_j8237747274085_1_alg».proof.Proof.LibAllReal

noncomputable section

namespace Cert.Gcn.Agg

open Idealize.ShloMosaic Idealize.ShloMosaic.ValueIdx Cert.RealSums Cert.BatchNorm Cert.AllReal

abbrev S2x800000 : Shape := ⟨2, ![2, 800000]⟩
abbrev S1x800000 : Shape := ⟨2, ![1, 800000]⟩
abbrev S800000 : Shape := ⟨1, ![800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S900000x64 : Shape := ⟨2, ![900000, 64]⟩
abbrev S100000x64 : Shape := ⟨2, ![100000, 64]⟩

/-- The side conditions the aggregation's operations ask of the literal shapes. -/
structure Facts : Prop where
  slices_0 : S2x800000.Slices ![0, 0] S1x800000
  slices_1 : S2x800000.Slices ![1, 0] S1x800000
  casts : S1x800000.ShapeCasts S800000
  concatenates : Shape.Concatenates [S800000, S100000] S900000 0
  bcast_S900000 : S_.BroadcastsInDim S900000 (![] : Fin 0 → Fin S900000.rank)
  bcast_S100000 : S_.BroadcastsInDim S100000 (![] : Fin 0 → Fin S100000.rank)
  bcast_col : S900000.BroadcastsInDim S900000x1 (![0] : Fin 1 → Fin S900000x1.rank)
  bcast_wide : S900000x1.BroadcastsInDim S900000x64 (![0, 1] : Fin 2 → Fin S900000x64.rank)
  bcast_S100000x64 : S_.BroadcastsInDim S100000x64 (![] : Fin 0 → Fin S100000x64.rank)
  scatter1_wf : ScatterDims.WF S100000 S900000x1 S900000 [] [0] [0] 1
  gather1_wf : GatherDims.WF S100000 S900000x1 S900000 [] [0] [] [0] [] 1 ![1]
  gather2_wf : GatherDims.WF S100000x64 S900000x1 S900000x64 [1] [0] [] [0] [] 1 ![1, 64]
  scatter2_wf : ScatterDims.WF S100000x64 S900000x1 S900000x64 [1] [0] [0] 1

variable (f : Facts)

/-- Scatter of one number per message into a vector of nodes. -/
def scatter1 : ScatterDims S100000 S900000x1 S900000 where
  updateWindowDims := []
  insertedWindowDims := [0]
  scatterDimsToOperandDims := [0]
  indexVectorDim := 1
  wf := f.scatter1_wf
/-- Lookup of one number per message in a vector of nodes. -/
def gather1 : GatherDims S100000 S900000x1 S900000 where
  offsetDims := []
  collapsedSliceDims := [0]
  operandBatchingDims := []
  startIndicesBatchingDims := []
  startIndexMap := [0]
  indexVectorDim := 1
  sliceSizes := ![1]
  wf := f.gather1_wf
/-- Lookup of one row per message in an array of node rows. -/
def gather2 : GatherDims S100000x64 S900000x1 S900000x64 where
  offsetDims := [1]
  collapsedSliceDims := [0]
  operandBatchingDims := []
  startIndicesBatchingDims := []
  startIndexMap := [0]
  indexVectorDim := 1
  sliceSizes := ![1, 64]
  wf := f.gather2_wf
/-- Scatter of one row per message into an array of node rows. -/
def scatter2 : ScatterDims S100000x64 S900000x1 S900000x64 where
  updateWindowDims := [1]
  insertedWindowDims := [0]
  scatterDimsToOperandDims := [0]
  indexVectorDim := 1
  wf := f.scatter2_wf

/-- The sources of the 900000 messages: row 0 of the edge array, then the self loops. -/
def sources (ei : IVec S2x800000 32) : IVec S900000 32 :=
  concatenate S900000 0 [⟨S800000, shapeCast _ (extractStridedSlice S1x800000 ![0, 0] ei f.slices_0) f.casts⟩,
    ⟨S100000, iotaInDim S100000 32 0⟩] f.concatenates
/-- The targets of the 900000 messages: row 1 of the edge array, then the self loops. -/
def targets (ei : IVec S2x800000 32) : IVec S900000 32 :=
  concatenate S900000 0 [⟨S800000, shapeCast _ (extractStridedSlice S1x800000 ![1, 0] ei f.slices_1) f.casts⟩,
    ⟨S100000, iotaInDim S100000 32 0⟩] f.concatenates
/-- Node numbers made ready for a lookup: a negative number has 100000 added; the result is a column. -/
def wrapped (v : IVec S900000 32) : IVec S900000x1 32 :=
  broadcastInDim S900000x1 ![0] f.bcast_col
    (select (cmpi .slt v (broadcastInDim S900000 ![] f.bcast_S900000 (constantI S_ 32 0#32)))
      (addi v (broadcastInDim S900000 ![] f.bcast_S900000 (constantI S_ 32 100000#32))) v)
/-- The degree of every node: ones summed onto the messages' targets, from zero. -/
def degree (ei : IVec S2x800000 32) : FVec Ideal S100000 .f32 :=
  Host.scatterAdd (scatter1 f) (broadcastInDim S100000 ![] f.bcast_S100000 (constant (F := Ideal) S_ .f32 0x00000000#32))
    (broadcastInDim S900000x1 ![0] f.bcast_col (targets f ei))
    (broadcastInDim S900000 ![] f.bcast_S900000 (constant (F := Ideal) S_ .f32 0x3F800000#32))
/-- The factor of every node: deg^(−1/2) where the degree is positive, 0 elsewhere. -/
def factor (ei : IVec S2x800000 32) : FVec Ideal S100000 .f32 :=
  select (cmpf .ogt (degree f ei) (broadcastInDim S100000 ![] f.bcast_S100000 (constant (F := Ideal) S_ .f32 0x00000000#32)))
    (Host.rsqrt (degree f ei))
    (broadcastInDim S100000 ![] f.bcast_S100000 (constant (F := Ideal) S_ .f32 0x00000000#32))
/-- The weight of every message: the factor of its source times the factor of its target. -/
def weight (ei : IVec S2x800000 32) : FVec Ideal S900000 .f32 :=
  mulf (Host.gather (gather1 f) (factor f ei) (wrapped f (sources f ei)))
    (Host.gather (gather1 f) (factor f ei) (wrapped f (targets f ei)))
/-- THE AGGREGATE: the rows of h looked up at the sources, scaled by the weights, summed onto the targets from zero. -/
def aggregate (h : FVec Ideal S100000x64 .f32) (ei : IVec S2x800000 32) : FVec Ideal S100000x64 .f32 :=
  Host.scatterAdd (scatter2 f)
    (broadcastInDim S100000x64 ![] f.bcast_S100000x64 (constant (F := Ideal) S_ .f32 0x00000000#32))
    (broadcastInDim S900000x1 ![0] f.bcast_col (targets f ei))
    (mulf (Host.gather (gather2 f) h (wrapped f (sources f ei)))
      (broadcastInDim S900000x64 ![0, 1] f.bcast_wide (broadcastInDim S900000x1 ![0] f.bcast_col (weight f ei))))

/-- Any two ways of supplying the side conditions give the same aggregate. -/
theorem aggregate_facts_irrel (f g : Facts) : aggregate f = aggregate g := rfl

/-! ### Real rows aggregate to real rows -/

/-- Every degree is real: a sum of ones onto a zero array. -/
theorem allReal_degree (ei : IVec S2x800000 32) : AllReal (degree f ei) :=
  allReal_scatterAdd _ _
    (allReal_broadcastInDim_constant _ _ _ .f32 _ isReal_ofBits_zero)
    (allReal_broadcastInDim_constant _ _ _ .f32 _ isReal_ofBits_one)

/-- A number that is the reciprocal square root of a real where that real is positive, and zero elsewhere, is real. -/
theorem isReal_select_rsqrt {x zero zero' : EReal} (hx : IsReal x) (h0 : zero = 0) (h0' : IsReal zero') :
    IsReal (Scalar.select (Ideal.cmp .ogt x zero) (Ideal.rsqrt x) zero') := by
  subst h0
  obtain ⟨r, rfl⟩ := hx
  by_cases hr : (0 : EReal) < ((r : ℝ) : EReal)
  · have e : Ideal.cmp .ogt ((r : ℝ) : EReal) 0 = 1#1 := by
      show BitVec.ofBool (decide ((0 : EReal) < ((r : ℝ) : EReal))) = 1#1
      rw [decide_eq_true hr]; rfl
    rw [e, select_one]
    exact isReal_rsqrt_of_pos (by exact_mod_cast hr)
  · have e : Ideal.cmp .ogt ((r : ℝ) : EReal) 0 = 0#1 := by
      show BitVec.ofBool (decide ((0 : EReal) < ((r : ℝ) : EReal))) = 0#1
      rw [decide_eq_false hr]; rfl
    rw [e, select_zero]
    exact h0'

/-- An array that holds the reciprocal square root of an all-real array where that array is positive, and the entries of an
    all-real array elsewhere, is all-real. -/
theorem allReal_select_rsqrt {s : Shape} {d z z' : FVec Ideal s .f32} (hd : AllReal d) (hz : ∀ i, z i = 0)
    (hz' : AllReal z') : AllReal (select (cmpf .ogt d z) (Host.rsqrt d) z') :=
  fun i => isReal_select_rsqrt (hd i) (hz i) (hz' i)

/-- Every factor is real. -/
theorem allReal_factor (ei : IVec S2x800000 32) : AllReal (factor f ei) := by
  unfold factor
  exact allReal_select_rsqrt (allReal_degree f ei) (fun _ => Ideal.ofBits_zero_f32)
    (allReal_broadcastInDim_constant _ _ _ .f32 _ isReal_ofBits_zero)

/-- Every weight is real. -/
theorem allReal_weight (ei : IVec S2x800000 32) : AllReal (weight f ei) :=
  allReal_mulf (allReal_gather _ _ (allReal_factor f ei)) (allReal_gather _ _ (allReal_factor f ei))

/-- REAL ROWS AGGREGATE TO REAL ROWS. -/
theorem allReal_aggregate {h : FVec Ideal S100000x64 .f32} (hh : AllReal h) (ei : IVec S2x800000 32) :
    AllReal (aggregate f h ei) :=
  allReal_scatterAdd _ _
    (allReal_broadcastInDim_constant _ _ _ .f32 _ isReal_ofBits_zero)
    (allReal_mulf (allReal_gather _ _ hh)
      (allReal_broadcastInDim _ _ _ (allReal_broadcastInDim _ _ _ (allReal_weight f ei))))

end Cert.Gcn.Agg

end
-- ==== Proof.Spec.lean ====
/-
  The mathematics of one graph-convolution layer followed by batch normalisation, as functions of arrays of extended
  reals, index by index.

  A node feature matrix x (100000 × 256) is projected by a weight matrix w (256 × 64): entry (r, q) of the projection
  is the sum over k of x(r, k) · w(k, q). After the projected rows have been aggregated over the edges of the graph
  into an array a (100000 × 64), a bias row b is added, and each of the 64 columns of y = a + b is normalised over its
  100000 rows: with μ the column's mean and v its variance, the output entry is (y − μ) · (v + ε)^(−1/2) · γ + β for a
  scale row γ and a shift row β. The column statistics enter through the two column sums Σ y and Σ y².
  Rows b, μ, v, γ, β are kept as 1 × 64 arrays.
-/
import Idealize.ShloMosaic.PureOps.Ideal
import Idealize.ShloMosaic.Lib.ValueIdx

open scoped BigOperators

noncomputable section

namespace Cert.Gcn

open Idealize.ShloMosaic Idealize.ShloMosaic.ValueIdx

/-- The node features, 100000 × 256. -/
abbrev SX : Shape := ⟨2, ![100000, 256]⟩
/-- The weights, 256 × 64. -/
abbrev SW : Shape := ⟨2, ![256, 64]⟩
/-- A node-by-channel array, 100000 × 64. -/
abbrev SH : Shape := ⟨2, ![100000, 64]⟩
/-- One row of channels, 1 × 64. -/
abbrev SR : Shape := ⟨2, ![1, 64]⟩

/-- The projection x · w: entry (r, q) is the sum over the 256 features k of x(r, k) · w(k, q). -/
def proj (x : SX.Idx → EReal) (w : SW.Idx → EReal) : SH.Idx → EReal :=
  fun i => ∑ k : Fin 256, x (ix2 (i 0) k) * w (ix2 k (i 1))

/-- The column sums of a + b: column q holds the sum over the 100000 rows r of a(r, q) + b(q). -/
def colSum (a : SH.Idx → EReal) (b : SR.Idx → EReal) : SR.Idx → EReal :=
  fun j => ∑ r : Fin 100000, (a (ix2 r (j 1)) + b (ix2 (0 : Fin 1) (j 1)))

/-- The column sums of the squares of a + b. -/
def colSumSq (a : SH.Idx → EReal) (b : SR.Idx → EReal) : SR.Idx → EReal :=
  fun j => ∑ r : Fin 100000, (a (ix2 r (j 1)) + b (ix2 (0 : Fin 1) (j 1))) * (a (ix2 r (j 1)) + b (ix2 (0 : Fin 1) (j 1)))

/-- The normalised output: entry (r, q) is ((a(r, q) + b(q)) − μ(q)) · (v(q) + ε)^(−1/2) · γ(q) + β(q), with ε the
    single-precision number nearest to 10⁻⁵. -/
def normalize (a : SH.Idx → EReal) (b μ v γ β : SR.Idx → EReal) : SH.Idx → EReal :=
  fun i => ((a i + b (ix2 (0 : Fin 1) (i 1))) - μ (ix2 (0 : Fin 1) (i 1)))
      * Ideal.rsqrt (v (ix2 (0 : Fin 1) (i 1)) + Ideal.ofBits .f32 0x3727C5AC#32)
      * γ (ix2 (0 : Fin 1) (i 1)) + β (ix2 (0 : Fin 1) (i 1))

end Cert.Gcn

end
-- ==== Proof.Stats.lean ====
/-
  The column statistics of a batch normalisation as rows, and the agreement of the two forms of the variance.

  For an array a (100000 × 64) and a bias row b, put y(r, q) = a(r, q) + b(q). The mean row is μ(q) = (Σ_r y(r, q)) / 100000.
  The variance of column q can be computed as the mean of the squares minus the square of the mean,
  (Σ_r y(r, q)²) / 100000 − μ(q)², or as the mean of the squared deviations, (Σ_r (y(r, q) − μ(q))²) / 100000. On the
  extended reals the two agree when every y(r, q) is real (the ring laws used in expanding the square fail at the
  infinities), and then the normalised outputs built from them agree as well. The count 100000 enters as the
  single-precision pattern 0x47C35000, which denotes exactly 100000.
-/
import proofs.«181618_j8237747274085_1_alg».proof.Proof.Spec
import proofs.«181618_j8237747274085_1_alg».proof.Proof.LibBatchNorm
import proofs.«181618_j8237747274085_1_alg».proof.Proof.LibAllReal

open scoped BigOperators

noncomputable section

namespace Cert.Gcn

open Idealize.ShloMosaic Idealize.ShloMosaic.ValueIdx Cert.RealSums Cert.AllReal

/-- The single-precision pattern 0x47C35000 denotes the real 100000. -/
theorem ofBits_100000 : Ideal.ofBits .f32 0x47C35000#32 = ((100000 : ℝ) : EReal) := by
  simp [Ideal.ofBits, Ideal.ieee, -EReal.coe_mul]; norm_num

/-- A vector of 64 channels seen as a 1 × 64 row. -/
def row (v : (⟨1, ![64]⟩ : Shape).Idx → EReal) : SR.Idx → EReal := fun j => v (ix1 (j 1))

/-- The row of an all-real vector is all-real. -/
theorem allReal_row {v : (⟨1, ![64]⟩ : Shape).Idx → EReal} (hv : AllReal v) : AllReal (row v) := fun _ => hv _

/-- The mean row: column sum over the count. -/
def meanRow (a : SH.Idx → EReal) (b : SR.Idx → EReal) : SR.Idx → EReal :=
  fun j => Ideal.div (colSum a b j) (Ideal.ofBits .f32 0x47C35000#32)

/-- The variance row as the mean of the squares minus the square of the mean. -/
def varSqRow (a : SH.Idx → EReal) (b : SR.Idx → EReal) : SR.Idx → EReal :=
  fun j => Ideal.div (colSumSq a b j) (Ideal.ofBits .f32 0x47C35000#32) - meanRow a b j * meanRow a b j

/-- The variance row as the mean of the squared deviations from the mean. -/
def varDevRow (a : SH.Idx → EReal) (b : SR.Idx → EReal) : SR.Idx → EReal :=
  fun j => Ideal.div (∑ r : Fin 100000, ((a (ix2 r (j 1)) + b (ix2 (0 : Fin 1) (j 1))) - meanRow a b j)
      * ((a (ix2 r (j 1)) + b (ix2 (0 : Fin 1) (j 1))) - meanRow a b j)) (Ideal.ofBits .f32 0x47C35000#32)

/-- THE TWO VARIANCE ROWS AGREE when the array and the bias row are real. -/
theorem varSqRow_eq_varDevRow {a : SH.Idx → EReal} {b : SR.Idx → EReal} (ha : AllReal a) (hb : AllReal b) :
    varSqRow a b = varDevRow a b := by
  funext j
  unfold varSqRow varDevRow meanRow colSum colSumSq
  rw [ofBits_100000]
  exact Cert.BatchNorm.var_eq (fun r : Fin 100000 => a (ix2 r (j 1)) + b (ix2 (0 : Fin 1) (j 1)))
    (fun r => (ha _).add (hb _)) (by rw [Fintype.card_fin]; norm_num) (by norm_num)

/-- Hence the normalised outputs built from the two variance rows agree. -/
theorem normalize_var_forms {a : SH.Idx → EReal} {b : SR.Idx → EReal} (ha : AllReal a) (hb : AllReal b)
    (γ β : SR.Idx → EReal) :
    normalize a b (meanRow a b) (varSqRow a b) γ β = normalize a b (meanRow a b) (varDevRow a b) γ β := by
  rw [varSqRow_eq_varDevRow ha hb]

end Cert.Gcn

end
-- ==== Proof.HostReads.lean ====
/-
  The contents of the buffers at the boundaries between the kernel program's segments, read back.

  The program runs: the projection region; host operations that aggregate the projected rows over the edges and
  reshape the three parameter vectors to rows; the statistics region; host operations that turn the two column sums
  into the mean row and the variance row (mean of squares minus squared mean); the normalisation region. Each
  boundary's contents are the previous boundary's with the segment's writes applied, so every array a later segment
  reads is an explicit function of earlier ones:
    the result is what the normalisation region leaves in its output window;
    the mean and variance rows are quotients of the statistics region's two outputs by the count;
    the arrays a region only reads come out of it as they went in;
    (the aggregate is read in a module of its own);
    the bias, scale and shift rows are the parameter vectors seen as rows.
-/
import proofs.«181618_j8237747274085_1_alg».proof.Proof.Gen.KernelIdeal.Frame
import proofs.«181618_j8237747274085_1_alg».proof.Proof.Aggregate
import proofs.«181618_j8237747274085_1_alg».proof.Proof.Stats
import Idealize.ShloMosaic.Lib.StableHlo.Run
import Idealize.ShloMosaic.Lib.Pipeline.Value
import Idealize.ShloMosaic.Lib.ValueLayout

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo Idealize.ShloMosaic.ValueIdx
open Cert.Gcn

variable (m : (ℓ : Loc nD τ sig) → Buf (Elt Ideal) ℓ) (ρ : Dev nD → PrngReg)

/-! ### After the last region -/

/-- The result array is what the normalisation region leaves in its output window. -/
theorem result_read (c : Dev nD) :
    W7 m ρ c (Proc.devRef .tc main_v54) = (dat2 (V6 m ρ) c).arrAt 6 cfg2.N := W7_arr m ρ c 6

/-! ### Between the statistics and the normalisation -/

/-- The mean row: the column-sum output over the count. -/
theorem mean_read (c : Dev nD) :
    V6 m ρ c main_v49 = Host.divf (F := Ideal) (W5 m ρ c (Proc.devRef .tc main_v47_0))
      (broadcastInDim S1x64 ![] bcast_S_S1x64 (constant (F := Ideal) S_ .f32 0x47C35000#32)) := by
  show StableHlo.after hostOps2 (W5 m ρ c) (Proc.devRef .tc main_v49) = _
  after_results

/-- The variance row: the column-sum-of-squares output over the count, minus the squared mean row. -/
theorem var_read (c : Dev nD) :
    V6 m ρ c main_v53 = subf (Host.divf (F := Ideal) (W5 m ρ c (Proc.devRef .tc main_v47_1))
      (broadcastInDim S1x64 ![] bcast_S_S1x64 (constant (F := Ideal) S_ .f32 0x47C35000#32)))
      (mulf (V6 m ρ c main_v49) (V6 m ρ c main_v49)) := by
  rw [mean_read]
  show StableHlo.after hostOps2 (W5 m ρ c) (Proc.devRef .tc main_v53) = _
  after_results

theorem agg_kept2 (c : Dev nD) : V6 m ρ c main_v43 = W5 m ρ c (Proc.devRef .tc main_v43) := by
  show StableHlo.after hostOps2 (W5 m ρ c) (Proc.devRef .tc main_v43) = _
  after_results
theorem bias_kept2 (c : Dev nD) : V6 m ρ c main_v44 = W5 m ρ c (Proc.devRef .tc main_v44) := by
  show StableHlo.after hostOps2 (W5 m ρ c) (Proc.devRef .tc main_v44) = _
  after_results
theorem scale_kept2 (c : Dev nD) : V6 m ρ c main_v45 = W5 m ρ c (Proc.devRef .tc main_v45) := by
  show StableHlo.after hostOps2 (W5 m ρ c) (Proc.devRef .tc main_v45) = _
  after_results
theorem shift_kept2 (c : Dev nD) : V6 m ρ c main_v46 = W5 m ρ c (Proc.devRef .tc main_v46) := by
  show StableHlo.after hostOps2 (W5 m ρ c) (Proc.devRef .tc main_v46) = _
  after_results

/-! ### Across the statistics region -/

theorem sum_read (c : Dev nD) : W5 m ρ c (Proc.devRef .tc main_v47_0) = (dat1 (V4 m ρ) c).arrAt 2 cfg1.N := W5_arr m ρ c 2
theorem sumsq_read (c : Dev nD) : W5 m ρ c (Proc.devRef .tc main_v47_1) = (dat1 (V4 m ρ) c).arrAt 3 cfg1.N := W5_arr m ρ c 3
/-- An array the statistics region only reads comes out as it went in. -/
theorem agg_kept1 (c : Dev nD) : W5 m ρ c (Proc.devRef .tc main_v43) = V4 m ρ c main_v43 :=
  (W5_arr m ρ c 0).trans (((dat1 (V4 m ρ) c).arrAt_in 0 rfl _).trans (A_eq1 (V4 m ρ) c 0))
theorem bias_kept1 (c : Dev nD) : W5 m ρ c (Proc.devRef .tc main_v44) = V4 m ρ c main_v44 :=
  (W5_arr m ρ c 1).trans (((dat1 (V4 m ρ) c).arrAt_in 1 rfl _).trans (A_eq1 (V4 m ρ) c 1))
theorem scale_kept1 (c : Dev nD) : W5 m ρ c (Proc.devRef .tc main_v45) = V4 m ρ c main_v45 :=
  W5_of_ne m ρ c main_v45 (by decide)
theorem shift_kept1 (c : Dev nD) : W5 m ρ c (Proc.devRef .tc main_v46) = V4 m ρ c main_v46 :=
  W5_of_ne m ρ c main_v46 (by decide)

/-! ### Between the projection and the statistics -/

theorem bias_read (c : Dev nD) :
    V4 m ρ c main_v44 = shapeCast S1x64 (W1 m ρ c (Proc.devRef .tc main_arg3)) shapeCasts_S64_S1x64 := by
  show StableHlo.after hostOps1_2 (StableHlo.after hostOps1_1 (StableHlo.after hostOps1 (W1 m ρ c))) (Proc.devRef .tc main_v44) = _
  after_results
  all_goals rfl
theorem scale_read (c : Dev nD) :
    V4 m ρ c main_v45 = shapeCast S1x64 (W1 m ρ c (Proc.devRef .tc main_arg4)) shapeCasts_S64_S1x64 := by
  show StableHlo.after hostOps1_2 (StableHlo.after hostOps1_1 (StableHlo.after hostOps1 (W1 m ρ c))) (Proc.devRef .tc main_v45) = _
  after_results
  all_goals rfl
theorem shift_read (c : Dev nD) :
    V4 m ρ c main_v46 = shapeCast S1x64 (W1 m ρ c (Proc.devRef .tc main_arg5)) shapeCasts_S64_S1x64 := by
  show StableHlo.after hostOps1_2 (StableHlo.after hostOps1_1 (StableHlo.after hostOps1 (W1 m ρ c))) (Proc.devRef .tc main_v46) = _
  after_results
  all_goals rfl

/-! ### Across the projection region -/

theorem proj_read (c : Dev nD) : W1 m ρ c (Proc.devRef .tc main_v0) = (dat0 (V0 m ρ) c).arrAt 2 cfg0.N := W1_arr m ρ c 2
theorem edges_kept0 (c : Dev nD) : W1 m ρ c (Proc.devRef .tc main_arg1) = m ((c : Thread nD τ).loc main_arg1) :=
  W1_of_ne m ρ c main_arg1 (by decide)
theorem bias_kept0 (c : Dev nD) : W1 m ρ c (Proc.devRef .tc main_arg3) = m ((c : Thread nD τ).loc main_arg3) :=
  W1_of_ne m ρ c main_arg3 (by decide)
theorem scale_kept0 (c : Dev nD) : W1 m ρ c (Proc.devRef .tc main_arg4) = m ((c : Thread nD τ).loc main_arg4) :=
  W1_of_ne m ρ c main_arg4 (by decide)
theorem shift_kept0 (c : Dev nD) : W1 m ρ c (Proc.devRef .tc main_arg5) = m ((c : Thread nD τ).loc main_arg5) :=
  W1_of_ne m ρ c main_arg5 (by decide)

end Cert.KernelIdeal.HostReads

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.AggRead.lean ====
/-
  The aggregate the kernel program hands to its statistics region, read back through the host operations that compute it.

  Between the projection region and the statistics region the program runs three stretches of host operations. The
  first builds the sources and targets of the 900000 messages (the edge array's two rows, each followed by the self
  loops), the degree of every node (ones summed onto the targets), the comparison "degree > 0" and the reciprocal
  square roots of the degrees. The second is the selection between those reciprocal square roots and zero; its three
  operations carry their operands through transports between two spellings of one array type, and a value carried
  there and back, or carried once along an equation between identical types, is the value itself. The third looks up
  the factors at the wrapped sources and targets, multiplies them into the weights, scales the looked-up projected rows
  and sums them onto the targets. Read stretch by stretch, with the contents in between kept as they are, the result is
  Cert.Gcn.Agg.aggregate of the projection region's output and the edge array.
-/
import proofs.«181618_j8237747274085_1_alg».proof.Proof.Gen.KernelIdeal.Frame
import proofs.«181618_j8237747274085_1_alg».proof.Proof.Aggregate
import proofs.«181618_j8237747274085_1_alg».proof.Proof.LibHostFold
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The side conditions of the aggregation, from the program's own. -/
theorem aggFacts : Cert.Gcn.Agg.Facts where
  slices_0 := Facts₀.slices_S2x800000_S1x800000_0_0
  slices_1 := Facts₀.slices_S2x800000_S1x800000_1_0
  casts := Facts₀.shapeCasts_S1x800000_S800000
  concatenates := Facts₀.concatenates_S800000_S100000_S900000_d0
  bcast_S900000 := Facts₀.bcast_S_S900000
  bcast_S100000 := Facts₀.bcast_S_S100000
  bcast_col := Facts₀.bcast_S900000_S900000x1_0
  bcast_wide := Facts₀.bcast_S900000x1_S900000x64_0_1
  bcast_S100000x64 := Facts₀.bcast_S_S100000x64
  scatter1_wf := Facts₀.scatter_S100000_S900000x1_S900000_n_0_0_1_wf
  gather1_wf := Facts₀.gather_S100000_S900000x1_S900000_n_0_n_n_0_1_1_wf
  gather2_wf := Facts₀.gather_S100000x64_S900000x1_S900000x64_1_0_n_n_0_1_164_wf
  scatter2_wf := Facts₀.scatter_S100000x64_S900000x1_S900000x64_1_0_0_1_wf

open Cert.Gcn.Agg in
/-- The aggregate from GIVEN factors, sources and targets: the rows of h looked up at the wrapped sources, scaled by the
    product of the two endpoints' factors, summed onto the targets from zero. -/
def aggregateOf (f : Cert.Gcn.Agg.Facts) (h : FVec Ideal Cert.Gcn.Agg.S100000x64 .f32) (d : FVec Ideal Cert.Gcn.Agg.S100000 .f32)
    (src tgt : IVec Cert.Gcn.Agg.S900000 32) : FVec Ideal Cert.Gcn.Agg.S100000x64 .f32 :=
  Host.scatterAdd (scatter2 f)
    (broadcastInDim S100000x64 ![] f.bcast_S100000x64 (constant (F := Ideal) S_ .f32 0x00000000#32))
    (broadcastInDim S900000x1 ![0] f.bcast_col tgt)
    (mulf (Host.gather (gather2 f) h (wrapped f src))
      (broadcastInDim S900000x64 ![0, 1] f.bcast_wide (broadcastInDim S900000x1 ![0] f.bcast_col
        (mulf (Host.gather (gather1 f) d (wrapped f src)) (Host.gather (gather1 f) d (wrapped f tgt))))))

/-- The aggregation is that, at its own factors, sources and targets. -/
theorem aggregate_eq_of (f : Cert.Gcn.Agg.Facts) (h : FVec Ideal Cert.Gcn.Agg.S100000x64 .f32) (ei : IVec Cert.Gcn.Agg.S2x800000 32) :
    Cert.Gcn.Agg.aggregate f h ei = aggregateOf f h (Cert.Gcn.Agg.factor f ei) (Cert.Gcn.Agg.sources f ei) (Cert.Gcn.Agg.targets f ei) := rfl

/-! ### The first stretch: sources, targets, degrees, the comparison, the reciprocal square roots -/

theorem sources_read (c : Dev nD) :
    W2 m ρ c (Proc.devRef .tc main_v4) = Cert.Gcn.Agg.sources aggFacts (W1 m ρ c (Proc.devRef .tc main_arg1)) := by
  show StableHlo.after hostOps1 (W1 m ρ c) (Proc.devRef .tc main_v4) = _
  generalize W1 m ρ c = V
  after_results
  all_goals rfl
theorem targets_read (c : Dev nD) :
    W2 m ρ c (Proc.devRef .tc main_v7) = Cert.Gcn.Agg.targets aggFacts (W1 m ρ c (Proc.devRef .tc main_arg1)) := by
  show StableHlo.after hostOps1 (W1 m ρ c) (Proc.devRef .tc main_v7) = _
  generalize W1 m ρ c = V
  after_results
  all_goals rfl
theorem mask_read (c : Dev nD) :
    W2 m ρ c (Proc.devRef .tc main_v13) = cmpf .ogt (Cert.Gcn.Agg.degree aggFacts (W1 m ρ c (Proc.devRef .tc main_arg1)))
      (broadcastInDim S100000 ![] bcast_S_S100000 (constant (F := Ideal) S_ .f32 0x00000000#32)) := by
  show StableHlo.after hostOps1 (W1 m ρ c) (Proc.devRef .tc main_v13) = _
  generalize W1 m ρ c = V
  after_results
  all_goals rfl
theorem rsqrt_read (c : Dev nD) :
    W2 m ρ c (Proc.devRef .tc main_v14) = Host.rsqrt (Cert.Gcn.Agg.degree aggFacts (W1 m ρ c (Proc.devRef .tc main_arg1))) := by
  show StableHlo.after hostOps1 (W1 m ρ c) (Proc.devRef .tc main_v14) = _
  generalize W1 m ρ c = V
  after_results
  all_goals rfl
theorem zero_read (c : Dev nD) :
    W2 m ρ c (Proc.devRef .tc main_cst_2) = constant (F := Ideal) S_ .f32 0x00000000#32 := by
  show StableHlo.after hostOps1 (W1 m ρ c) (Proc.devRef .tc main_cst_2) = _
  generalize W1 m ρ c = V
  after_results
theorem proj_kept1 (c : Dev nD) : W2 m ρ c (Proc.devRef .tc main_v0) = W1 m ρ c (Proc.devRef .tc main_v0) := by
  show StableHlo.after hostOps1 (W1 m ρ c) (Proc.devRef .tc main_v0) = _
  generalize W1 m ρ c = V
  after_results

/-! ### The second stretch: the selection between the reciprocal square roots and zero -/

theorem select_read (c : Dev nD) :
    W3 m ρ c (Proc.devRef .tc main_v15) = select (W2 m ρ c (Proc.devRef .tc main_v13)) (W2 m ρ c (Proc.devRef .tc main_v14))
      (broadcastInDim S100000 ![] bcast_S_S100000 (W2 m ρ c (Proc.devRef .tc main_cst_2))) := by
  show StableHlo.after hostOps1_1 (W2 m ρ c) (Proc.devRef .tc main_v15) = _
  generalize W2 m ρ c = V
  after_results_simp
  simp only [Cert.HostFold.ofBuf_toBuf]
  refine Cert.HostFold.toBuf_eq _ _ _ ?_
  rw [Cert.HostFold.ofBuf_eq _ _ (V (Proc.devRef .tc main_v13)) HEq.rfl,
    Cert.HostFold.ofBuf_eq _ _ (V (Proc.devRef .tc main_v14)) HEq.rfl,
    Cert.HostFold.ofBuf_eq _ _ (V (Proc.devRef .tc main_cst_2)) HEq.rfl]
  exact HEq.rfl
theorem sources_kept (c : Dev nD) : W3 m ρ c (Proc.devRef .tc main_v4) = W2 m ρ c (Proc.devRef .tc main_v4) := by
  show StableHlo.after hostOps1_1 (W2 m ρ c) (Proc.devRef .tc main_v4) = _
  generalize W2 m ρ c = V
  after_results_simp
theorem targets_kept (c : Dev nD) : W3 m ρ c (Proc.devRef .tc main_v7) = W2 m ρ c (Proc.devRef .tc main_v7) := by
  show StableHlo.after hostOps1_1 (W2 m ρ c) (Proc.devRef .tc main_v7) = _
  generalize W2 m ρ c = V
  after_results_simp
theorem proj_kept2 (c : Dev nD) : W3 m ρ c (Proc.devRef .tc main_v0) = W2 m ρ c (Proc.devRef .tc main_v0) := by
  show StableHlo.after hostOps1_1 (W2 m ρ c) (Proc.devRef .tc main_v0) = _
  generalize W2 m ρ c = V
  after_results_simp

/-- The factors: the selection is the aggregation's factor array. -/
theorem factor_read (c : Dev nD) :
    W3 m ρ c (Proc.devRef .tc main_v15) = Cert.Gcn.Agg.factor aggFacts (W1 m ρ c (Proc.devRef .tc main_arg1)) := by
  rw [select_read, mask_read, rsqrt_read, zero_read]
  rfl

/-! ### The third stretch: the weights, the messages, their sum onto the targets -/

set_option maxHeartbeats 4000000 in
theorem messages_read (c : Dev nD) :
    V4 m ρ c main_v43 = aggregateOf aggFacts (W3 m ρ c (Proc.devRef .tc main_v0)) (W3 m ρ c (Proc.devRef .tc main_v15))
      (W3 m ρ c (Proc.devRef .tc main_v4)) (W3 m ρ c (Proc.devRef .tc main_v7)) := by
  show StableHlo.after hostOps1_2 (W3 m ρ c) (Proc.devRef .tc main_v43) = _
  generalize W3 m ρ c = V
  after_results
  all_goals rfl

/-- The aggregate: the aggregation of the projection region's output over the edge array. -/
theorem agg_read (c : Dev nD) :
    V4 m ρ c main_v43 = Cert.Gcn.Agg.aggregate aggFacts (W1 m ρ c (Proc.devRef .tc main_v0)) (W1 m ρ c (Proc.devRef .tc main_arg1)) := by
  rw [messages_read, factor_read, sources_kept, sources_read, targets_kept, targets_read, proj_kept2, proj_kept1, aggregate_eq_of]

end Cert.KernelIdeal.HostReads

end
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.LibStatsValue.lean ====
/-
  The values a matrix product with running column statistics computes, read entry by entry over the extended reals:
  a product accumulated into the zero block, at an entry, is the sum over the contracted coordinate of the products of
  the entries; the sum of a tile over its rows, kept as a one-row array, at a column, is the sum of that column.
-/
import Idealize.ShloMosaic.PureOps.Ideal
import Idealize.ShloMosaic.PureOps.Ideal.Laws
import Idealize.ShloMosaic.Lib.ValueIdx
import Idealize.ShloMosaic.Lib.Pipeline.Value
import proofs.«181618_j8237747274085_1_alg».proof.Proof.LibTileSum
import proofs.«181618_j8237747274085_1_alg».proof.Proof.LibBatchNorm

noncomputable section

namespace Cert.StatsValue

open Idealize.ShloMosaic Idealize.ShloMosaic.ValueIdx

/-- An m×k by k×n product (contracting the first operand's columns against the second's rows) accumulated into the
    zero block, read at entry (a, b): the sum over the contracted coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The sum of an m×n tile over its rows, cast from a vector to a one-row array, read at column q: the sum of the
    tile's column q. -/
theorem colsum_row_apply {m n : ℕ} (h : (⟨2, ![m, n]⟩ : Shape).Reduces [0] ⟨1, ![n]⟩)
    (hc : (⟨1, ![n]⟩ : Shape).ShapeCasts ⟨2, ![1, n]⟩) (hφ : FKind.Formats .f32)
    (hacc : (0x00000000#32 : BitVec FTy.f32.bits) = FKind.add.neutral .f32 hφ)
    (src : FVec Ideal ⟨2, ![m, n]⟩ .f32) (z : Fin 1) (q : Fin n) :
    shapeCast ⟨2, ![1, n]⟩ (multiReduction (F := Ideal) .add [0] ⟨1, ![n]⟩ src 0x00000000#32 h hφ hacc) hc (ix2 z q)
      = ∑ r : Fin m, src (ix2 r q) := by
  refine (shapeCast_addUnit_apply ![n] _ hc (ix2 z q)).trans ?_
  refine (Ideal.multiReduction_add_single src _ h hφ hacc _).trans ?_
  show ∑ r : Fin m, src (h.lift (fun a => ix2 z q a.succ) r) = _
  refine Finset.sum_congr rfl fun r _ => congrArg src ?_
  funext ax; apply Fin.ext
  match ax with
  | ⟨0, _⟩ => rfl
  | ⟨1, _⟩ => rfl

/-- A running sum over N tiles of T rows each — zero plus the first tile's sum after the first step, the next tile's sum
    added at every further step — holds, after the last step, the sum over all N·T rows: row T·s + j of the whole is
    row j of tile s. -/
theorem acc_tiles_eq_sum (N T : ℕ) (hN : 0 < N) (acc f : ℕ → EReal)
    (h0 : acc 0 = 0 + ∑ j : Fin T, f (T * 0 + j.val))
    (hs : ∀ n, n + 1 < N → acc (n + 1) = acc n + ∑ j : Fin T, f (T * (n + 1) + j.val)) :
    acc (N - 1) = ∑ r : Fin (N * T), f r.val := by
  rw [Cert.BatchNorm.acc_last_eq_sum acc (fun t => ∑ j : Fin T, f (T * t + j.val)) N hN h0 hs, Cert.TileSum.sum_tiles]

end Cert.StatsValue

end
-- ==== Proof.ProjArray.lean ====
/-
  The projection region, read as one array.

  The region walks over the 100000 rows of the node features x in 20 blocks of 5000 rows. At block t it takes rows
  5000·t … 5000·t + 4999 of x (all 256 columns) and the whole 256 × 64 weight matrix w, multiplies them into a zero
  accumulator, and writes the 5000 × 64 product over rows 5000·t … 5000·t + 4999 of the output. Entry (p, q) of the
  product of a block is the sum over the 256 features k of block(p, k) · w(k, q), and block(p, k) is x(5000·t + p, k);
  so what block t writes is the restriction to its rows of ONE function of x and w — the projection, whose entry (r, q)
  is the sum over k of x(r, k) · w(k, q). Every row r lies in the block r / 5000 and every column in every block, so
  the 20 blocks cover the output, and after the region the output array is the projection of x by w.
-/
import proofs.«181618_j8237747274085_1_alg».proof.Proof.Gen.KernelIdeal.Frame
import proofs.«181618_j8237747274085_1_alg».proof.Proof.Spec
import proofs.«181618_j8237747274085_1_alg».proof.Proof.LibStatsValue
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.ProjArray

/-- The offsets of a whole-block access, however the zeros are spelt. -/
theorem origin_eq_zero : (![0, 0] : Fin 2 → Nat) = fun _ => 0 := funext fun a => by fin_cases a <;> rfl

/-- The product of a 5000 × 256 block by the 256 × 64 weights, accumulated from zero, at entry (p, q): the sum over
    the 256 features k of block(p, k) · weights(k, q). (Narrowing to the 16-bit format is the identity on the
    extended reals.) -/
theorem tile_product_apply (x0 : Vec Ideal S5000x256 .f32) (x1 : Vec Ideal S256x64 .f32) (p : Fin 5000) (q : Fin 64) :
    k0_pay1 (F := Ideal) x0 x1 (ix2 p q) = ∑ k : Fin 256, x0 (ix2 p k) * x1 (ix2 k q) := by
  unfold k0_pay1
  exact Cert.StatsValue.matmul_zero_apply dot_S5000x256_S256x64_S5000x64_1_0_0_1_n_n.wf none
    (truncf .bf16 x0 bitsLt_bf16_f32) (truncf .bf16 x1 bitsLt_bf16_f32) p q

/-- A block product is a piece of the projection: if row (j 0) of the block is row (i 0) of x, and the block's weights
    are w, then entry j of the block product is entry i of the projection whenever the two have the same column. -/
theorem tile_entry (x : Cert.Gcn.SX.Idx → EReal) (w : Cert.Gcn.SW.Idx → EReal)
    (x0 : Vec Ideal S5000x256 .f32) (x1 : Vec Ideal S256x64 .f32) (j : S5000x64.Idx) (i : Cert.Gcn.SH.Idx)
    (h0 : ∀ k : Fin 256, x0 (ix2 (j 0) k) = x (ix2 (i 0) k))
    (h1 : ∀ k : Fin 256, x1 (ix2 k (j 1)) = w (ix2 k (i 1))) :
    k0_pay1 (F := Ideal) x0 x1 j = Cert.Gcn.proj x w i := by
  obtain ⟨p, q, rfl⟩ : ∃ (p : Fin 5000) (q : Fin 64), j = ix2 p q := ⟨j 0, j 1, eq_ix2 j⟩
  refine (tile_product_apply x0 x1 p q).trans ?_
  exact Finset.sum_congr rfl fun k _ => congrArg₂ (· * ·) (h0 k) (h1 k)

/-- The block indices of the three operands, decided over the 20 points: the block of x and the block of the output
    at point t are block t along the rows and block 0 along the columns; the weights are always block (0, 0). -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT t WRITES BACK is block t of the projection of the arrays the region finds. -/
theorem written_block_eq_proj (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.Gcn.proj (V c main_arg0) (V c main_arg2)) := by
  show (cfg0.win 2).cut (grid0.coords t) ((dat0 (F := Ideal) V c).after 2 t) = _
  rw [after0_2]
  unfold out0_2
  rw [View.canon_unit_zero origin_eq_zero]
  simp only [View.ld_unit_zero (S := S5000x256) origin_eq_zero, View.ld_unit_zero (S := S256x64) origin_eq_zero]
  obtain ⟨e0, e1, e2, e3, e4, e5⟩ := block_indices t
  funext j
  show k0_pay1 (F := Ideal) (iblk0 V c 0 t) (iblk0 V c 1 t) j
      = Cert.Gcn.proj (V c main_arg0) (V c main_arg2) (((cfg0.win 2).blk t).view.emb j)
  refine tile_entry (V c main_arg0) (V c main_arg2) (iblk0 V c 0 t) (iblk0 V c 1 t) j
    (((cfg0.win 2).blk t).view.emb j) (fun k => ?_) (fun k => ?_)
  · show V c main_arg0 (((cfg0.win 0).blk t).view.emb (ix2 (j 0) k : S5000x256.Idx))
        = V c main_arg0 (ix2 ((((cfg0.win 2).blk t).view.emb j) 0) k : S100000x256.Idx)
    refine congrArg (V c main_arg0) ?_
    funext a; apply Fin.ext
    match a with
    | ⟨0, _⟩ =>
      show win0_0.index t (0 : Fin 2) * 5000 + 1 * (j 0).val = win0_2.index t (0 : Fin 2) * 5000 + 1 * (j 0).val
      rw [e0]
    | ⟨1, _⟩ =>
      show win0_0.index t (1 : Fin 2) * 256 + 1 * k.val = k.val
      omega
  · show V c main_arg2 (((cfg0.win 1).blk t).view.emb (ix2 k (j 1) : S256x64.Idx))
        = V c main_arg2 (ix2 k ((((cfg0.win 2).blk t).view.emb j) 1) : S256x64.Idx)
    refine congrArg (V c main_arg2) ?_
    funext a; apply Fin.ext
    match a with
    | ⟨0, _⟩ =>
      show win0_1.index t (0 : Fin 2) * 256 + 1 * k.val = k.val
      omega
    | ⟨1, _⟩ =>
      show win0_1.index t (1 : Fin 2) * 64 + 1 * (j 1).val = win0_2.index t (1 : Fin 2) * 64 + 1 * (j 1).val
      omega

/-- An index of the output lies in the block of point t iff each coordinate lies in the block's range on its axis. -/
theorem mem_row_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- THE COVER: row r lies in the block of point r / 5000, and every column lies in every block; every point writes
    its block back. -/
theorem rows_covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  obtain ⟨t, ht⟩ : ∃ t : Fin cfg0.N, t.val = (i 0).val / 5000 :=
    ⟨⟨(i 0).val / 5000, by show (i 0).val / 5000 < grid0.N; omega⟩, rfl⟩
  obtain ⟨e0, e1, e2, e3, e4, e5⟩ := block_indices t
  refine ⟨t, flush0_2 t, ?_⟩
  rw [mem_row_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- THE ARRAY after the region: the projection of the node features by the weights, as the region finds them. -/
theorem proj_array (V : (c : Dev nD) → (b : Ref sig .tc) → Buf (Elt Ideal) ((c : Thread nD τ).loc b)) (c : Dev nD) :
    (Gen.dat0 (F := Ideal) V c).arrAt 2 cfg0.N = Cert.Gcn.proj (V c main_arg0) (V c main_arg2) :=
  (dat0 (F := Ideal) V c).arrAt_eq_of_cover 2 (Cert.Gcn.proj (V c main_arg0) (V c main_arg2))
    (fun t _ => written_block_eq_proj V c t) rows_covered

end Cert.KernelIdeal.ProjArray

end
-- ==== Proof.StatsArrays.lean ====
/-
  The column statistics of y = a + b, read off the accumulating region as two closed-form arrays.

  The region walks the 100000 rows of a (100000 × 64) in 20 blocks of 5000 rows. At every grid point it forms the
  block of y — the block of a plus the one row b repeated down the block —, sums each of the 64 columns of that block
  and of its entrywise square over the 5000 rows, and adds the two rows of column sums to two running 1 × 64 rows.
  At the first point the running rows are first set to the single-precision zero pattern, which denotes 0; the two
  rows are carried from point to point and copied out to their arrays once, after the last point.

  Proved here, entry by entry over the extended reals: after the region, the first array holds at column q the sum
  over all 100000 rows r of a(r, q) + b(q), and the second the sum of the squares (a(r, q) + b(q))². The steps are:
  what each point leaves in the running rows, as the body's arithmetic of the rows it found and of the two blocks;
  that arithmetic at a column q (the running entry plus a sum over the block's 5000 rows); the blocks as entries of
  the arrays (row j of block t is row 5000·t + j of a; the row of b is the same at every point); the running entry
  after point n as zero plus the sums of blocks 0 … n, hence after point 19 the sum over Fin (20 · 5000); and the
  array after the region as the one copy-out of point 19, whose 1 × 64 block is the whole array.
-/
import proofs.«181618_j8237747274085_1_alg».proof.Proof.Gen.KernelIdeal.Frame
import proofs.«181618_j8237747274085_1_alg».proof.Proof.Spec
import proofs.«181618_j8237747274085_1_alg».proof.Proof.LibStatsValue
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.StatsArrays

/-! ## What one grid point leaves in the two running rows -/

variable {F : FTy → Type} [FloatOps F]

/-- The offsets (0, 0), however spelt, are the zero offsets. -/
theorem hz : (![0, 0] : Fin 2 → Nat) = fun _ => 0 := funext fun a => by fin_cases a <;> rfl

/-- At a point other than the first the body overwrites the whole running row of sums with one value: the row it
    found plus the column sums of the block of a + b. -/
theorem out_B_2 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S5000x64 .f32) (x1 xo2 xo3 : Vec F S1x64 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz]
  simp only [View.readAt_eq_ld, h1.read_unread, h2.read_unread, h3.read_unread, View.ld_unit_zero (S := S5000x64) hz,
    View.ld_unit_zero (S := S1x64) hz]

/-- At a point other than the first the running row of squared sums becomes the row found plus the column sums of
    the entrywise square of the block of a + b. -/
theorem out_B_3 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S5000x64 .f32) (x1 xo2 xo3 : Vec F S1x64 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz]
  simp only [View.readAt_eq_ld, h1.read_unread, h2.read_unread, h4.read_unread, View.ld_unit_zero (S := S5000x64) hz,
    View.ld_unit_zero (S := S1x64) hz]

/-- At the first point the body first writes the zero row over the running row of sums and reads it back, so the row
    it leaves is the zero row plus the column sums of the block of a + b (the later of the two writes decides). -/
theorem out_A_2 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S5000x64 .f32) (x1 : Vec F S1x64 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread, View.ld_unit_zero (S := S5000x64) hz,
    View.ld_unit_zero (S := S1x64) hz]

/-- At the first point the running row of squared sums is left at the zero row plus the column sums of the entrywise
    square of the block of a + b. -/
theorem out_A_3 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S5000x64 .f32) (x1 : Vec F S1x64 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread, View.ld_unit_zero (S := S5000x64) hz,
    View.ld_unit_zero (S := S1x64) hz]

/-! ## The body's arithmetic at an entry, over the extended reals -/

/-- Entry (j, q) of the block of a + b: the block of a at (j, q) plus the row b at column q (the row is repeated down
    the 5000 rows of the block; the two reshapes to the same shape change nothing). -/
theorem pay3_apply (x0 : FVec Ideal S5000x64 .f32) (x1 : FVec Ideal S1x64 .f32) (j : Fin 5000) (q : Fin 64) :
    k1_pay3 (F := Ideal) x0 x1 (ix2 j q) = x0 (ix2 j q) + x1 (ix2 (0 : Fin 1) q) := by
  unfold k1_pay3
  refine (addf_apply _ _ (ix2 j q)).trans ?_
  rw [shapeCast_self, shapeCast_self]
  exact congrArg (fun z => x0 (ix2 j q) + z) (broadcastTo_1b_ab_apply x1 broadcasts_S1x64_S5000x64 j q)

/-- Every entry of the first zero row is 0: the single-precision zero pattern denotes 0. -/
theorem pay1_apply (z : Fin 1) (q : Fin 64) : k1_pay1 (F := Ideal) (ix2 z q) = 0 := by
  unfold k1_pay1
  exact Ideal.ofBits_zero_f32

/-- Every entry of the second zero row is 0. -/
theorem pay2_apply (z : Fin 1) (q : Fin 64) : k1_pay2 (F := Ideal) (ix2 z q) = 0 := by
  unfold k1_pay2
  exact Ideal.ofBits_zero_f32

/-- Column q of the new row of sums: the running entry at column q plus the sum over the block's 5000 rows j of
    a-block(j, q) + b(q). The reduction over the row axis, kept as a one-row array, is read by the column-sum law. -/
theorem pay4_apply (x0 : FVec Ideal S5000x64 .f32) (x1 acc : FVec Ideal S1x64 .f32) (z : Fin 1) (q : Fin 64) :
    k1_pay4 (F := Ideal) x0 x1 acc (ix2 z q)
      = acc (ix2 z q) + ∑ j : Fin 5000, (x0 (ix2 j q) + x1 (ix2 (0 : Fin 1) q)) := by
  unfold k1_pay4
  dsimp only
  refine (addf_apply _ _ (ix2 z q)).trans ?_
  rw [shapeCast_self]
  refine congrArg (fun s => acc (ix2 z q) + s) ?_
  refine (Cert.StatsValue.colsum_row_apply reduces_S5000x64_S64 shapeCasts_S64_S1x64 (.inl rfl) rfl
    (k1_pay3 (F := Ideal) x0 x1) z q).trans ?_
  exact Finset.sum_congr rfl fun j _ => pay3_apply x0 x1 j q

/-- Column q of the new row of squared sums: the running entry plus the sum over the block's rows of
    (a-block(j, q) + b(q))². -/
theorem pay5_apply (x0 : FVec Ideal S5000x64 .f32) (x1 acc : FVec Ideal S1x64 .f32) (z : Fin 1) (q : Fin 64) :
    k1_pay5 (F := Ideal) x0 x1 acc (ix2 z q)
      = acc (ix2 z q) + ∑ j : Fin 5000, (x0 (ix2 j q) + x1 (ix2 (0 : Fin 1) q)) * (x0 (ix2 j q) + x1 (ix2 (0 : Fin 1) q)) := by
  unfold k1_pay5
  dsimp only
  refine (addf_apply _ _ (ix2 z q)).trans ?_
  rw [shapeCast_self]
  refine congrArg (fun s => acc (ix2 z q) + s) ?_
  refine (Cert.StatsValue.colsum_row_apply reduces_S5000x64_S64 shapeCasts_S64_S1x64 (.inl rfl) rfl
    (mulf (k1_pay3 (F := Ideal) x0 x1) (k1_pay3 (F := Ideal) x0 x1)) z q).trans ?_
  refine Finset.sum_congr rfl fun j _ => ?_
  refine (mulf_apply _ _ (ix2 j q)).trans ?_
  rw [pay3_apply x0 x1 j q]

/-! ## The blocks as entries of the arrays -/

/-- The block index maps over the 20 points: the block of a at point t is block (t, 0); the block of b is (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

variable (V : (c : Dev nD) → (b : Ref sig .tc) → Buf (Elt Ideal) ((c : Thread nD τ).loc b))

/-- Row j, column q of the block of a at point t is row 5000·t + j, column q of a. -/
theorem blk_a_apply (c : Dev nD) (t : Fin cfg1.N) (j : Fin 5000) (q : Fin 64) (h : 5000 * t.val + j.val < 100000) :
    (iblk1 (F := Ideal) V c 0 t : FVec Ideal S5000x64 .f32) (ix2 j q)
      = (V c main_v43 : S100000x64.Idx → EReal) (ix2 ⟨5000 * t.val + j.val, h⟩ q) := by
  obtain ⟨e0, e1, -, -⟩ := idx_facts t
  unfold iblk1
  rw [View.read_apply]
  show V c main_v43 _ = V c main_v43 _
  congr 1
  funext a; apply Fin.ext
  match a with
  | ⟨0, _⟩ => show win1_0.index t (0 : Fin 2) * 5000 + 1 * j.val = 5000 * t.val + j.val; rw [e0]; omega
  | ⟨1, _⟩ => show win1_0.index t (1 : Fin 2) * 64 + 1 * q.val = q.val; rw [e1]; omega

/-- The block of b at any point is b itself: its one row at column q. -/
theorem blk_b_apply (c : Dev nD) (t : Fin cfg1.N) (z : Fin 1) (q : Fin 64) :
    (iblk1 (F := Ideal) V c 1 t : FVec Ideal S1x64 .f32) (ix2 z q)
      = (V c main_v44 : S1x64.Idx → EReal) (ix2 (0 : Fin 1) q) := by
  obtain ⟨-, -, e2, e3⟩ := idx_facts t
  unfold iblk1
  rw [View.read_apply]
  show V c main_v44 _ = V c main_v44 _
  congr 1
  funext a; apply Fin.ext
  match a with
  | ⟨0, _⟩ => show win1_1.index t (0 : Fin 2) * 1 + 1 * z.val = 0; rw [e2]; omega
  | ⟨1, _⟩ => show win1_1.index t (1 : Fin 2) * 64 + 1 * q.val = q.val; rw [e3]; omega

/-! ## The running rows after each point -/

/-- The term of row r in column q of y = a + b, as a function of a natural number r (0 past the last row, which no
    sum below reaches). -/
def rowTerm (a : S100000x64.Idx → EReal) (b : S1x64.Idx → EReal) (q : Fin 64) (r : ℕ) : EReal :=
  if h : r < 100000 then a (ix2 ⟨r, h⟩ q) + b (ix2 (0 : Fin 1) q) else 0

/-- Row j of block t is a row of the array: 5000·t + j < 100000 for t < 20, j < 5000. -/
theorem row_lt (t : Fin cfg1.N) (j : Fin 5000) : 5000 * t.val + j.val < 100000 := by
  have hN : cfg1.N = 20 := N_1
  have ht := t.isLt
  have hj := j.isLt
  omega

/-- A sum u + v whose summands are a(r, q) and b(q) is the term of row r. -/
theorem rowTerm_of_eq (a : S100000x64.Idx → EReal) (b : S1x64.Idx → EReal) (q : Fin 64) (r : ℕ) (h : r < 100000)
    (u v : EReal) (hu : u = a (ix2 ⟨r, h⟩ q)) (hv : v = b (ix2 (0 : Fin 1) q)) : u + v = rowTerm a b q r := by
  unfold rowTerm
  rw [dif_pos h, hu, hv]

/-- The block of a at (j, q) plus the block of b at column q, at point t, is the term of row 5000·t + j. -/
theorem blk_term (c : Dev nD) (t : Fin cfg1.N) (j : Fin 5000) (q : Fin 64) (u v : EReal)
    (hu : u = (iblk1 (F := Ideal) V c 0 t : FVec Ideal S5000x64 .f32) (ix2 j q))
    (hv : v = (iblk1 (F := Ideal) V c 1 t : FVec Ideal S1x64 .f32) (ix2 (0 : Fin 1) q)) :
    u + v = rowTerm (V c main_v43) (V c main_v44) q (5000 * t.val + j.val) :=
  rowTerm_of_eq (V c main_v43) (V c main_v44) q (5000 * t.val + j.val) (row_lt t j) u v
    (hu.trans (blk_a_apply V c t j q (row_lt t j))) (hv.trans (blk_b_apply V c t 0 q))

/-- After the first point the two running rows are the body's arithmetic of the zero rows and the point's blocks. -/
theorem outs_A (c : Dev nD) (t : Fin cfg1.N) (h0 : t.val % 20 = 0) :
    outsAt1 (F := Ideal) V c t.val t.isLt
      = (k1_pay4 (iblk1 V c 0 t) (iblk1 V c 1 t) (k1_pay1 (F := Ideal)), k1_pay5 (iblk1 V c 0 t) (iblk1 V c 1 t) (k1_pay2 (F := Ideal))) :=
  (outsAt1_A V c t h0).trans (congrArg₂ Prod.mk
    (out_A_2 (F := Ideal) c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))
    (out_A_3 (F := Ideal) c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t)))

/-- After any later point the two running rows are the body's arithmetic of the rows left by the point before and the
    point's blocks. -/
theorem outs_B (c : Dev nD) (t : Fin cfg1.N) (h0 : ¬t.val % 20 = 0) :
    outsAt1 (F := Ideal) V c t.val t.isLt
      = (k1_pay4 (iblk1 V c 0 t) (iblk1 V c 1 t) (outsAt1 V c (t.val - 1) (Nat.lt_of_le_of_lt (Nat.sub_le _ _) t.isLt)).1,
         k1_pay5 (iblk1 V c 0 t) (iblk1 V c 1 t) (outsAt1 V c (t.val - 1) (Nat.lt_of_le_of_lt (Nat.sub_le _ _) t.isLt)).2) :=
  (outsAt1_B V c t h0).trans (congrArg₂ Prod.mk
    (out_B_2 (F := Ideal) c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)
    (out_B_3 (F := Ideal) c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2))

/-- After the first point the running sum at column q is 0 plus the sum of the terms of the first block's rows. -/
theorem step_A_sum (c : Dev nD) (t : Fin cfg1.N) (h0 : t.val % 20 = 0) (z : Fin 1) (q : Fin 64) :
    (outsAt1 (F := Ideal) V c t.val t.isLt).1 (ix2 z q)
      = 0 + ∑ j : Fin 5000, rowTerm (V c main_v43) (V c main_v44) q (5000 * t.val + j.val) := by
  rw [outs_A V c t h0]
  refine (pay4_apply (iblk1 (F := Ideal) V c 0 t) (iblk1 (F := Ideal) V c 1 t) (k1_pay1 (F := Ideal)) z q).trans ?_
  rw [pay1_apply z q]
  exact congrArg (fun s => (0 : EReal) + s) (Finset.sum_congr rfl fun j _ => blk_term V c t j q _ _ rfl rfl)

/-- After the first point the running sum of squares at column q is 0 plus the sum of the squared terms of the first
    block's rows. -/
theorem step_A_sq (c : Dev nD) (t : Fin cfg1.N) (h0 : t.val % 20 = 0) (z : Fin 1) (q : Fin 64) :
    (outsAt1 (F := Ideal) V c t.val t.isLt).2 (ix2 z q)
      = 0 + ∑ j : Fin 5000, rowTerm (V c main_v43) (V c main_v44) q (5000 * t.val + j.val)
          * rowTerm (V c main_v43) (V c main_v44) q (5000 * t.val + j.val) := by
  rw [outs_A V c t h0]
  refine (pay5_apply (iblk1 (F := Ideal) V c 0 t) (iblk1 (F := Ideal) V c 1 t) (k1_pay2 (F := Ideal)) z q).trans ?_
  rw [pay2_apply z q]
  exact congrArg (fun s => (0 : EReal) + s) (Finset.sum_congr rfl fun j _ => congrArg (fun s => s * s) (blk_term V c t j q _ _ rfl rfl))

/-- A later point t adds to the running sum at column q the sum of the terms of rows 5000·t … 5000·t + 4999. -/
theorem step_B_sum (c : Dev nD) (t : Fin cfg1.N) (h0 : ¬t.val % 20 = 0) (z : Fin 1) (q : Fin 64) :
    (outsAt1 (F := Ideal) V c t.val t.isLt).1 (ix2 z q)
      = (outsAt1 (F := Ideal) V c (t.val - 1) (Nat.lt_of_le_of_lt (Nat.sub_le _ _) t.isLt)).1 (ix2 z q)
        + ∑ j : Fin 5000, rowTerm (V c main_v43) (V c main_v44) q (5000 * t.val + j.val) := by
  rw [outs_B V c t h0]
  refine (pay4_apply (iblk1 (F := Ideal) V c 0 t) (iblk1 (F := Ideal) V c 1 t) _ z q).trans ?_
  exact congrArg (fun s => _ + s) (Finset.sum_congr rfl fun j _ => blk_term V c t j q _ _ rfl rfl)

/-- A later point t adds to the running sum of squares at column q the sum of the squared terms of its rows. -/
theorem step_B_sq (c : Dev nD) (t : Fin cfg1.N) (h0 : ¬t.val % 20 = 0) (z : Fin 1) (q : Fin 64) :
    (outsAt1 (F := Ideal) V c t.val t.isLt).2 (ix2 z q)
      = (outsAt1 (F := Ideal) V c (t.val - 1) (Nat.lt_of_le_of_lt (Nat.sub_le _ _) t.isLt)).2 (ix2 z q)
        + ∑ j : Fin 5000, rowTerm (V c main_v43) (V c main_v44) q (5000 * t.val + j.val)
            * rowTerm (V c main_v43) (V c main_v44) q (5000 * t.val + j.val) := by
  rw [outs_B V c t h0]
  refine (pay5_apply (iblk1 (F := Ideal) V c 0 t) (iblk1 (F := Ideal) V c 1 t) _ z q).trans ?_
  exact congrArg (fun s => _ + s) (Finset.sum_congr rfl fun j _ => congrArg (fun s => s * s) (blk_term V c t j q _ _ rfl rfl))

/-! ## After the last point, and the arrays after the region -/

/-- The terms of all 100000 rows of column q add up to the column sum of a + b at column q. -/
theorem sum_rowTerm (a : S100000x64.Idx → EReal) (b : S1x64.Idx → EReal) (q : Fin 64) :
    ∑ r : Fin 100000, rowTerm a b q r.val = Cert.Gcn.colSum a b (ix2 (0 : Fin 1) q) := by
  unfold Cert.Gcn.colSum rowTerm
  exact Finset.sum_congr rfl fun r _ => dif_pos r.isLt

/-- The squared terms of all rows of column q add up to the column sum of squares at column q. -/
theorem sum_rowTerm_sq (a : S100000x64.Idx → EReal) (b : S1x64.Idx → EReal) (q : Fin 64) :
    ∑ r : Fin 100000, rowTerm a b q r.val * rowTerm a b q r.val = Cert.Gcn.colSumSq a b (ix2 (0 : Fin 1) q) := by
  unfold Cert.Gcn.colSumSq rowTerm
  refine Finset.sum_congr rfl fun r _ => ?_
  rw [dif_pos r.isLt]

/-- After point 19 the running sum at column q is the column sum: zero plus twenty block sums of 5000 rows each is the
    sum over Fin (20 · 5000), row 5000·s + j of the whole being row j of block s. -/
theorem sum_last (c : Dev nD) (q : Fin 64) (h19 : 19 < cfg1.N) :
    (outsAt1 (F := Ideal) V c 19 h19).1 (ix2 (0 : Fin 1) q)
      = Cert.Gcn.colSum (V c main_v43) (V c main_v44) (ix2 (0 : Fin 1) q) := by
  have hN : cfg1.N = 20 := N_1
  have key : (fun n => if h : n < cfg1.N then (outsAt1 (F := Ideal) V c n h).1 (ix2 (0 : Fin 1) q) else (0 : EReal)) 19
      = ∑ r : Fin 100000, rowTerm (V c main_v43) (V c main_v44) q r.val :=
    Cert.StatsValue.acc_tiles_eq_sum 20 5000 (by norm_num)
      (fun n => if h : n < cfg1.N then (outsAt1 (F := Ideal) V c n h).1 (ix2 (0 : Fin 1) q) else (0 : EReal))
      (rowTerm (V c main_v43) (V c main_v44) q)
      (by
        show (if h : 0 < cfg1.N then (outsAt1 (F := Ideal) V c 0 h).1 (ix2 (0 : Fin 1) q) else (0 : EReal)) = _
        rw [dif_pos (by omega : 0 < cfg1.N)]
        exact step_A_sum V c ⟨0, by omega⟩ rfl 0 q)
      (fun n hn => by
        show (if h : n + 1 < cfg1.N then (outsAt1 (F := Ideal) V c (n + 1) h).1 (ix2 (0 : Fin 1) q) else (0 : EReal))
          = (if h : n < cfg1.N then (outsAt1 (F := Ideal) V c n h).1 (ix2 (0 : Fin 1) q) else (0 : EReal)) + _
        rw [dif_pos (by omega : n + 1 < cfg1.N), dif_pos (by omega : n < cfg1.N)]
        exact step_B_sum V c ⟨n + 1, by omega⟩ (by show ¬(n + 1) % 20 = 0; omega) 0 q)
  exact (show _ = _ from (dif_pos h19).symm).trans (key.trans (sum_rowTerm (V c main_v43) (V c main_v44) q))

/-- After point 19 the running sum of squares at column q is the column sum of squares, by the same law. -/
theorem sq_last (c : Dev nD) (q : Fin 64) (h19 : 19 < cfg1.N) :
    (outsAt1 (F := Ideal) V c 19 h19).2 (ix2 (0 : Fin 1) q)
      = Cert.Gcn.colSumSq (V c main_v43) (V c main_v44) (ix2 (0 : Fin 1) q) := by
  have hN : cfg1.N = 20 := N_1
  have key : (fun n => if h : n < cfg1.N then (outsAt1 (F := Ideal) V c n h).2 (ix2 (0 : Fin 1) q) else (0 : EReal)) 19
      = ∑ r : Fin 100000, (rowTerm (V c main_v43) (V c main_v44) q r.val * rowTerm (V c main_v43) (V c main_v44) q r.val) :=
    Cert.StatsValue.acc_tiles_eq_sum 20 5000 (by norm_num)
      (fun n => if h : n < cfg1.N then (outsAt1 (F := Ideal) V c n h).2 (ix2 (0 : Fin 1) q) else (0 : EReal))
      (fun r => rowTerm (V c main_v43) (V c main_v44) q r * rowTerm (V c main_v43) (V c main_v44) q r)
      (by
        show (if h : 0 < cfg1.N then (outsAt1 (F := Ideal) V c 0 h).2 (ix2 (0 : Fin 1) q) else (0 : EReal)) = _
        rw [dif_pos (by omega : 0 < cfg1.N)]
        exact step_A_sq V c ⟨0, by omega⟩ rfl 0 q)
      (fun n hn => by
        show (if h : n + 1 < cfg1.N then (outsAt1 (F := Ideal) V c (n + 1) h).2 (ix2 (0 : Fin 1) q) else (0 : EReal))
          = (if h : n < cfg1.N then (outsAt1 (F := Ideal) V c n h).2 (ix2 (0 : Fin 1) q) else (0 : EReal)) + _
        rw [dif_pos (by omega : n + 1 < cfg1.N), dif_pos (by omega : n < cfg1.N)]
        exact step_B_sq V c ⟨n + 1, by omega⟩ (by show ¬(n + 1) % 20 = 0; omega) 0 q)
  exact (show _ = _ from (dif_pos h19).symm).trans (key.trans (sum_rowTerm_sq (V c main_v43) (V c main_v44) q))

/-- The running row of sums after point 19 is the column-sum row of a + b (a 1 × 64 array has only row 0). -/
theorem sum_entries (c : Dev nD) (h19 : 19 < cfg1.N) :
    (outsAt1 (F := Ideal) V c 19 h19).1 = Cert.Gcn.colSum (V c main_v43) (V c main_v44) := by
  funext i
  obtain ⟨z, q, rfl⟩ : ∃ (z : Fin 1) (q : Fin 64), i = ix2 z q := ⟨i 0, i 1, eq_ix2 i⟩
  obtain rfl : z = 0 := Subsingleton.elim _ _
  exact sum_last V c q h19

/-- The running row of squared sums after point 19 is the row of column sums of squares. -/
theorem sq_entries (c : Dev nD) (h19 : 19 < cfg1.N) :
    (outsAt1 (F := Ideal) V c 19 h19).2 = Cert.Gcn.colSumSq (V c main_v43) (V c main_v44) := by
  funext i
  obtain ⟨z, q, rfl⟩ : ∃ (z : Fin 1) (q : Fin 64), i = ix2 z q := ⟨i 0, i 1, eq_ix2 i⟩
  obtain rfl : z = 0 := Subsingleton.elim _ _
  exact sq_last V c q h19

/-- The last of the 20 grid points. -/
abbrev lastPt : Fin cfg1.N := ⟨19, by decide⟩

/-- Only point 19 copies the running row of sums out, and what it copies is block (0, 0) — the whole — of the column-sum
    row. -/
theorem flushed_sum (c : Dev nD) (t : Fin cfg1.N) (hf : (cfg1.win 2).flush t = true) :
    (dat1 (F := Ideal) V c).flushed 2 t
      = ((cfg1.win 2).blk t).view.read (Elt Ideal) (Cert.Gcn.colSum (V c main_v43) (V c main_v44)) := by
  have hN : cfg1.N = 20 := N_1
  have h19 : t.val = 19 := by have := (flush1_2 t).mp hf; have := t.isLt; omega
  obtain rfl : t = lastPt := Fin.ext h19
  show (cfg1.win 2).cut (grid1.coords lastPt) ((dat1 (F := Ideal) V c).after 2 lastPt) = _
  rw [after1_2, sum_entries V c]
  have hz' : (fun a => win1_2.index lastPt a * main_v47_0.ty.shape.size a) = fun _ => 0 :=
    funext fun a => by fin_cases a <;> decide +kernel
  exact (Memref.read_access_unit_zero (Elt Ideal) main_v47_0 hz' (fun a => by rw [congrFun hz' a]; simp)
    (Cert.Gcn.colSum (V c main_v43) (V c main_v44))).symm

/-- Only point 19 copies the running row of squared sums out: the whole of the row of column sums of squares. -/
theorem flushed_sq (c : Dev nD) (t : Fin cfg1.N) (hf : (cfg1.win 3).flush t = true) :
    (dat1 (F := Ideal) V c).flushed 3 t
      = ((cfg1.win 3).blk t).view.read (Elt Ideal) (Cert.Gcn.colSumSq (V c main_v43) (V c main_v44)) := by
  have hN : cfg1.N = 20 := N_1
  have h19 : t.val = 19 := by have := (flush1_3 t).mp hf; have := t.isLt; omega
  obtain rfl : t = lastPt := Fin.ext h19
  show (cfg1.win 3).cut (grid1.coords lastPt) ((dat1 (F := Ideal) V c).after 3 lastPt) = _
  rw [after1_3, sq_entries V c]
  have hz' : (fun a => win1_3.index lastPt a * main_v47_1.ty.shape.size a) = fun _ => 0 :=
    funext fun a => by fin_cases a <;> decide +kernel
  exact (Memref.read_access_unit_zero (Elt Ideal) main_v47_1 hz' (fun a => by rw [congrFun hz' a]; simp)
    (Cert.Gcn.colSumSq (V c main_v43) (V c main_v44))).symm

/-- THE FIRST ARRAY after the region: column q holds the sum over the 100000 rows r of a(r, q) + b(q). Point 19's
    1 × 64 block at (0, 0) covers every index of the array. -/
theorem sum_array (c : Dev nD) :
    (Gen.dat1 (F := Ideal) V c).arrAt 2 cfg1.N = Cert.Gcn.colSum (V c main_v43) (V c main_v44) :=
  (dat1 (F := Ideal) V c).arrAt_eq_of_cover 2 (Cert.Gcn.colSum (V c main_v43) (V c main_v44)) (flushed_sum V c) fun i =>
    ⟨lastPt, (flush1_2 lastPt).mpr rfl, by
      show i ∈ ((View.whole main_v47_0).slice (win1_2.rect lastPt)).set
      rw [View.set_slice_whole, Rect.mem_set_unit]
      intro a
      have h0 : (i 0 : Nat) < 1 := (i 0).isLt
      have h1 : (i 1 : Nat) < 64 := (i 1).isLt
      match a with
      | ⟨0, _⟩ =>
        show win1_2.index lastPt 0 * win1_2.size 0 ≤ (i 0 : Nat) ∧ (i 0 : Nat) < win1_2.index lastPt 0 * win1_2.size 0 + win1_2.xsize (grid1.coords lastPt) 0
        rw [show win1_2.index lastPt 0 * win1_2.size 0 = 0 from by decide +kernel, show win1_2.xsize (grid1.coords lastPt) 0 = 1 from by decide +kernel]; omega
      | ⟨1, _⟩ =>
        show win1_2.index lastPt 1 * win1_2.size 1 ≤ (i 1 : Nat) ∧ (i 1 : Nat) < win1_2.index lastPt 1 * win1_2.size 1 + win1_2.xsize (grid1.coords lastPt) 1
        rw [show win1_2.index lastPt 1 * win1_2.size 1 = 0 from by decide +kernel, show win1_2.xsize (grid1.coords lastPt) 1 = 64 from by decide +kernel]; omega⟩

/-- THE SECOND ARRAY after the region: column q holds the sum over the rows r of (a(r, q) + b(q))². -/
theorem sumsq_array (c : Dev nD) :
    (Gen.dat1 (F := Ideal) V c).arrAt 3 cfg1.N = Cert.Gcn.colSumSq (V c main_v43) (V c main_v44) :=
  (dat1 (F := Ideal) V c).arrAt_eq_of_cover 3 (Cert.Gcn.colSumSq (V c main_v43) (V c main_v44)) (flushed_sq V c) fun i =>
    ⟨lastPt, (flush1_3 lastPt).mpr rfl, by
      show i ∈ ((View.whole main_v47_1).slice (win1_3.rect lastPt)).set
      rw [View.set_slice_whole, Rect.mem_set_unit]
      intro a
      have h0 : (i 0 : Nat) < 1 := (i 0).isLt
      have h1 : (i 1 : Nat) < 64 := (i 1).isLt
      match a with
      | ⟨0, _⟩ =>
        show win1_3.index lastPt 0 * win1_3.size 0 ≤ (i 0 : Nat) ∧ (i 0 : Nat) < win1_3.index lastPt 0 * win1_3.size 0 + win1_3.xsize (grid1.coords lastPt) 0
        rw [show win1_3.index lastPt 0 * win1_3.size 0 = 0 from by decide +kernel, show win1_3.xsize (grid1.coords lastPt) 0 = 1 from by decide +kernel]; omega
      | ⟨1, _⟩ =>
        show win1_3.index lastPt 1 * win1_3.size 1 ≤ (i 1 : Nat) ∧ (i 1 : Nat) < win1_3.index lastPt 1 * win1_3.size 1 + win1_3.xsize (grid1.coords lastPt) 1
        rw [show win1_3.index lastPt 1 * win1_3.size 1 = 0 from by decide +kernel, show win1_3.xsize (grid1.coords lastPt) 1 = 64 from by decide +kernel]; omega⟩

end Cert.KernelIdeal.StatsArrays
end
-- ==== Proof.NormArray.lean ====
/-
  The normalisation step, read as one function of the arrays it starts from.

  The step works on an array a of 100000 rows and 64 columns, in 20 blocks of 5000 consecutive rows, together with
  five rows of 64 entries that every block sees whole: a bias b, a column mean μ, a column variance v, a scale γ and
  a shift β. On the block of rows 5000·t … 5000·t + 4999 it computes, entry by entry,

      ((a(r, q) + b(q)) − μ(q)) · (v(q) + ε)^(−1/2) · γ(q) + β(q),

  with ε the single-precision number nearest to 10⁻⁵, and writes the result to the same rows of the output array.

  Three facts are proved here.
  • The arithmetic of one block at an entry (p, q): the five rows are repeated down the 5000 rows of the block, so the
    entry depends on the block's entry (p, q) and on entry q of each row, by the formula above.
  • What block t writes is the formula's whole-array function, restricted to rows 5000·t … 5000·t + 4999: entry
    (p, q) of the block of a is a(5000·t + p, q), the rows are read at block index (0, 0), and the output block sits at
    the same rows.
  • Row r of the output lies in the block written at t = r / 5000, so the 20 blocks cover the output array, which
    therefore ends holding the whole-array function: the specification's `normalize`.
-/
import proofs.«181618_j8237747274085_1_alg».proof.Proof.Gen.KernelIdeal.Frame
import proofs.«181618_j8237747274085_1_alg».proof.Proof.Spec
import Idealize.ShloMosaic.Lib.Pipeline.Value
import Idealize.ShloMosaic.Lib.ValueIdx
import Idealize.ShloMosaic.Lib.ValueLayout

noncomputable section

namespace Cert.KernelIdeal.NormArray

open Idealize.ShloMosaic Idealize.ShloMosaic.TcCoe Idealize.SL.Sem Idealize.ShloMosaic.ValueIdx
open Cert.KernelIdeal Cert.KernelIdeal.Gen

/-! ## One block's arithmetic at an entry -/

/-- Entry (p, q) of a block's result. The block x0 is 5000 × 64; x1 (bias), xv (variance), xm (mean), xg (scale) and
    xb (shift) are 1 × 64 rows, each repeated down the 5000 rows, so only their entry (0, q) enters; the identity
    reshapes drop out, the sums, the difference and the products are entrywise, and the reciprocal square root is
    taken on the row v + ε before it is repeated. -/
theorem normalize_block_apply (x0 : Vec Ideal S5000x64 .f32) (x1 xv xm xg xb : Vec Ideal S1x64 .f32)
    (p : Fin 5000) (q : Fin 64) :
    k2_pay1 (F := Ideal) x0 x1 xv xm xg xb (ix2 p q)
      = ((x0 (ix2 p q) + x1 (ix2 (0 : Fin 1) q)) - xm (ix2 (0 : Fin 1) q))
          * Ideal.rsqrt (xv (ix2 (0 : Fin 1) q) + Ideal.ofBits .f32 0x3727C5AC#32)
          * xg (ix2 (0 : Fin 1) q) + xb (ix2 (0 : Fin 1) q) := by
  unfold k2_pay1
  rw [shapeCast_self x0, shapeCast_self x1, shapeCast_self xm, shapeCast_self xv, shapeCast_self xg, shapeCast_self xb]
  rw [addf_apply, mulf_apply, mulf_apply, subf_apply, addf_apply]
  rw [broadcastTo_1b_ab_apply x1, broadcastTo_1b_ab_apply xm, broadcastTo_1b_ab_apply xg, broadcastTo_1b_ab_apply xb,
    broadcastTo_1b_ab_apply (rsqrt _)]
  rfl

/-! ## Where each block sits -/

/-- The offset (0, 0) inside a block is the zero offset. -/
theorem origin_eq_zero : (![0, 0] : Fin 2 → Nat) = fun _ => 0 := funext fun a => by fin_cases a <;> rfl

/-- The block indices at grid point t, decided over the 20 points: the input array a and the output array are both
    at block (t, 0); each of the five rows is at block (0, 0). -/
theorem block_indices : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

section Blocks

variable (V : (c : Dev nD) → (b : Ref sig .tc) → Buf (Elt Ideal) ((c : Thread nD τ).loc b))

/-- Entry (p, q) of the output block at point t is entry (5000·t + p, q) of the output array: a block's coordinate on
    an axis is block index × block size + the coordinate inside the block. -/
theorem out_block_entry (t : Fin cfg2.N) (p : Fin 5000) (q : Fin 64) (r : Fin 100000)
    (hr : r.val = t.val * 5000 + p.val) :
    ((cfg2.win 6).blk t).view.emb (ix2 p q) = (ix2 r q : S100000x64.Idx) := by
  obtain ⟨-, -, e0, e1, -⟩ := block_indices t
  funext a; apply Fin.ext
  match a with
  | ⟨0, _⟩ => show win2_6.index t (0 : Fin 2) * 5000 + 1 * p.val = r.val; omega
  | ⟨1, _⟩ => show win2_6.index t (1 : Fin 2) * 64 + 1 * q.val = q.val; omega

/-- Entry (p, q) of the block of a at point t is a(5000·t + p, q). -/
theorem rows_block_apply (c : Dev nD) (t : Fin cfg2.N) (p : Fin 5000) (q : Fin 64) (r : Fin 100000)
    (hr : r.val = t.val * 5000 + p.val) :
    iblk2 (F := Ideal) V c 0 t (ix2 p q) = V c main_v43 (ix2 r q) := by
  obtain ⟨e0, e1, -⟩ := block_indices t
  show V c main_v43 (((cfg2.win 0).blk t).view.emb (ix2 p q)) = V c main_v43 (ix2 r q)
  refine congrArg (V c main_v43) ?_
  funext a; apply Fin.ext
  match a with
  | ⟨0, _⟩ => show win2_0.index t (0 : Fin 2) * 5000 + 1 * p.val = r.val; omega
  | ⟨1, _⟩ => show win2_0.index t (1 : Fin 2) * 64 + 1 * q.val = q.val; omega

/-- The bias row is one block at block index (0, 0), the same at every grid point: its entry (0, q) is the array's. -/
theorem bias_block_apply (c : Dev nD) (t : Fin cfg2.N) (q : Fin 64) :
    iblk2 (F := Ideal) V c 1 t (ix2 (0 : Fin 1) q) = V c main_v44 (ix2 (0 : Fin 1) q) := by
  obtain ⟨-, -, -, -, e0, e1, -⟩ := block_indices t
  show V c main_v44 (((cfg2.win 1).blk t).view.emb (ix2 (0 : Fin 1) q)) = V c main_v44 (ix2 (0 : Fin 1) q)
  refine congrArg (V c main_v44) ?_
  funext a; apply Fin.ext
  match a with
  | ⟨0, _⟩ => show win2_1.index t (0 : Fin 2) * 1 + 1 * 0 = 0; omega
  | ⟨1, _⟩ => show win2_1.index t (1 : Fin 2) * 64 + 1 * q.val = q.val; omega

/-- The mean row is one block at block index (0, 0), the same at every grid point: its entry (0, q) is the array's. -/
theorem mean_block_apply (c : Dev nD) (t : Fin cfg2.N) (q : Fin 64) :
    iblk2 (F := Ideal) V c 2 t (ix2 (0 : Fin 1) q) = V c main_v49 (ix2 (0 : Fin 1) q) := by
  obtain ⟨-, -, -, -, -, -, e0, e1, -⟩ := block_indices t
  show V c main_v49 (((cfg2.win 2).blk t).view.emb (ix2 (0 : Fin 1) q)) = V c main_v49 (ix2 (0 : Fin 1) q)
  refine congrArg (V c main_v49) ?_
  funext a; apply Fin.ext
  match a with
  | ⟨0, _⟩ => show win2_2.index t (0 : Fin 2) * 1 + 1 * 0 = 0; omega
  | ⟨1, _⟩ => show win2_2.index t (1 : Fin 2) * 64 + 1 * q.val = q.val; omega

/-- The variance row is one block at block index (0, 0), the same at every grid point: its entry (0, q) is the array's. -/
theorem var_block_apply (c : Dev nD) (t : Fin cfg2.N) (q : Fin 64) :
    iblk2 (F := Ideal) V c 3 t (ix2 (0 : Fin 1) q) = V c main_v53 (ix2 (0 : Fin 1) q) := by
  obtain ⟨-, -, -, -, -, -, -, -, e0, e1, -⟩ := block_indices t
  show V c main_v53 (((cfg2.win 3).blk t).view.emb (ix2 (0 : Fin 1) q)) = V c main_v53 (ix2 (0 : Fin 1) q)
  refine congrArg (V c main_v53) ?_
  funext a; apply Fin.ext
  match a with
  | ⟨0, _⟩ => show win2_3.index t (0 : Fin 2) * 1 + 1 * 0 = 0; omega
  | ⟨1, _⟩ => show win2_3.index t (1 : Fin 2) * 64 + 1 * q.val = q.val; omega

/-- The scale row is one block at block index (0, 0), the same at every grid point: its entry (0, q) is the array's. -/
theorem scale_block_apply (c : Dev nD) (t : Fin cfg2.N) (q : Fin 64) :
    iblk2 (F := Ideal) V c 4 t (ix2 (0 : Fin 1) q) = V c main_v45 (ix2 (0 : Fin 1) q) := by
  obtain ⟨-, -, -, -, -, -, -, -, -, -, e0, e1, -⟩ := block_indices t
  show V c main_v45 (((cfg2.win 4).blk t).view.emb (ix2 (0 : Fin 1) q)) = V c main_v45 (ix2 (0 : Fin 1) q)
  refine congrArg (V c main_v45) ?_
  funext a; apply Fin.ext
  match a with
  | ⟨0, _⟩ => show win2_4.index t (0 : Fin 2) * 1 + 1 * 0 = 0; omega
  | ⟨1, _⟩ => show win2_4.index t (1 : Fin 2) * 64 + 1 * q.val = q.val; omega

/-- The shift row is one block at block index (0, 0), the same at every grid point: its entry (0, q) is the array's. -/
theorem shift_block_apply (c : Dev nD) (t : Fin cfg2.N) (q : Fin 64) :
    iblk2 (F := Ideal) V c 5 t (ix2 (0 : Fin 1) q) = V c main_v46 (ix2 (0 : Fin 1) q) := by
  obtain ⟨-, -, -, -, -, -, -, -, -, -, -, -, e0, e1⟩ := block_indices t
  show V c main_v46 (((cfg2.win 5).blk t).view.emb (ix2 (0 : Fin 1) q)) = V c main_v46 (ix2 (0 : Fin 1) q)
  refine congrArg (V c main_v46) ?_
  funext a; apply Fin.ext
  match a with
  | ⟨0, _⟩ => show win2_5.index t (0 : Fin 2) * 1 + 1 * 0 = 0; omega
  | ⟨1, _⟩ => show win2_5.index t (1 : Fin 2) * 64 + 1 * q.val = q.val; omega

/-! ## What one grid point writes -/

/-- The block written at point t is the block of rows 5000·t … 5000·t + 4999 of the whole-array function
    `normalize` of the arrays the step starts from: at entry (p, q) both sides are the formula at a(5000·t + p, q) and
    entry q of the five rows (the variance row is the arithmetic's third operand, the mean row its fourth). -/
theorem written_block_eq (c : Dev nD) (t : Fin cfg2.N) :
    (dat2 (F := Ideal) V c).flushed 6 t = ((cfg2.win 6).blk t).view.read (Elt Ideal)
      (Cert.Gcn.normalize (V c main_v43) (V c main_v44) (V c main_v49) (V c main_v53) (V c main_v45) (V c main_v46)) := by
  show (cfg2.win 6).cut (grid2.coords t) ((dat2 V c).after 6 t) = _
  rw [after2_6]
  unfold out2_6
  rw [View.canon_unit_zero origin_eq_zero]
  simp only [View.ld_unit_zero (S := S5000x64) origin_eq_zero, View.ld_unit_zero (S := S1x64) origin_eq_zero]
  funext j
  obtain ⟨p, q, rfl⟩ : ∃ (p : Fin 5000) (q : Fin 64), j = ix2 p q := ⟨j 0, j 1, eq_ix2 j⟩
  have ht : t.val < 20 := lt_of_lt_of_eq t.isLt N_2
  have hp : p.val < 5000 := p.isLt
  show k2_pay1 (iblk2 V c 0 t) (iblk2 V c 1 t) (iblk2 V c 3 t) (iblk2 V c 2 t) (iblk2 V c 4 t) (iblk2 V c 5 t) (ix2 p q)
      = Cert.Gcn.normalize (V c main_v43) (V c main_v44) (V c main_v49) (V c main_v53) (V c main_v45) (V c main_v46)
          (((cfg2.win 6).blk t).view.emb (ix2 p q))
  rw [out_block_entry t p q ⟨t.val * 5000 + p.val, by omega⟩ rfl]
  refine (normalize_block_apply (iblk2 V c 0 t) (iblk2 V c 1 t) (iblk2 V c 3 t) (iblk2 V c 2 t) (iblk2 V c 4 t)
    (iblk2 V c 5 t) p q).trans ?_
  rw [rows_block_apply V c t p q ⟨t.val * 5000 + p.val, by omega⟩ rfl, bias_block_apply V c t q,
    mean_block_apply V c t q, var_block_apply V c t q, scale_block_apply V c t q, shift_block_apply V c t q]
  rfl

end Blocks

/-! ## The blocks cover the output -/

/-- An entry of the output array is in the block written at point t iff, on each axis, its coordinate lies in the
    block's range: block index × block size ≤ coordinate < block index × block size + block size. -/
theorem mem_out_block (t : Fin cfg2.N) (i : S100000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v54).slice (win2_6.rect t)).set ↔ _
  rw [View.set_slice_whole, Rect.mem_set_unit]
  exact Iff.rfl

/-- Every entry (r, q) of the output array is written: by the point t = r / 5000, whose block holds the rows
    5000·t … 5000·t + 4999 and all 64 columns. -/
theorem rows_covered (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, e0, e1, -⟩ := block_indices t
  refine ⟨t, flush2_6 t, ?_⟩
  rw [mem_out_block]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 64 ≤ (i 1).val ∧ (i 1).val < win2_6.index t (1 : Fin 2) * 64 + 64
    omega

/-! ## The output array -/

/-- After the 20 grid points the output array is `normalize` of the arrays the step starts from: a (main_v43), the
    bias row (main_v44), the mean row (main_v49), the variance row (main_v53), the scale row (main_v45) and the shift
    row (main_v46). Each point writes its block of that function, and the blocks cover the array. -/
theorem norm_array (V : (c : Dev nD) → (b : Ref sig .tc) → Buf (Elt Ideal) ((c : Thread nD τ).loc b)) (c : Dev nD) :
    (Gen.dat2 (F := Ideal) V c).arrAt 6 cfg2.N
      = Cert.Gcn.normalize (V c main_v43) (V c main_v44) (V c main_v49) (V c main_v53) (V c main_v45) (V c main_v46) :=
  (dat2 (F := Ideal) V c).arrAt_eq_of_cover 6 _ (fun t _ => written_block_eq V c t) rows_covered

end Cert.KernelIdeal.NormArray

end
-- ==== Proof.KernelValue.lean ====
/-
  The idealized kernel program's result array as one function of its arguments.

  Chaining the boundary reads: the result is the normalisation region's output, the normalisation (Cert.Gcn.normalize) of
  the aggregate A, the bias row B, the mean row, the variance row, the scale row and the shift row it finds; the mean row
  is the statistics region's column-sum output over the count, i.e. the mean row of A + B; the variance row is the
  column-sum-of-squares output over the count minus the squared mean, i.e. the variance row of A + B in its
  mean-of-squares form; A is the aggregation, over the edge array, of the projection region's output, which is the
  matrix product of the node features with the weights; B, the scale row and the shift row are the three parameter
  vectors seen as 1 × 64 rows.
-/
import proofs.«181618_j8237747274085_1_alg».proof.Proof.HostReads
import proofs.«181618_j8237747274085_1_alg».proof.Proof.AggRead
import proofs.«181618_j8237747274085_1_alg».proof.Proof.ProjArray
import proofs.«181618_j8237747274085_1_alg».proof.Proof.StatsArrays
import proofs.«181618_j8237747274085_1_alg».proof.Proof.NormArray

set_option maxRecDepth 16384

noncomputable section

namespace Cert.KernelIdeal.KernelValue

open Cert.KernelIdeal Cert.KernelIdeal.Gen Cert.KernelIdeal.HostReads
open Idealize.ShloMosaic Idealize.ShloMosaic.TcCoe Idealize.SL.Sem Idealize.ShloMosaic.ValueIdx
open Cert.Gcn

/-- A column-sum row over the count is the mean row. -/
theorem mean_of_sum (a : SH.Idx → EReal) (b : SR.Idx → EReal) :
    Host.divf (F := Ideal) (colSum a b) (broadcastInDim S1x64 ![] bcast_S_S1x64 (constant (F := Ideal) S_ .f32 0x47C35000#32))
      = meanRow a b := rfl

/-- A column-sum-of-squares row over the count, minus the squared mean row, is the variance row in its mean-of-squares
    form. -/
theorem var_of_sums (a : SH.Idx → EReal) (b : SR.Idx → EReal) :
    subf (Host.divf (F := Ideal) (colSumSq a b) (broadcastInDim S1x64 ![] bcast_S_S1x64 (constant (F := Ideal) S_ .f32 0x47C35000#32)))
        (mulf (meanRow a b) (meanRow a b))
      = varSqRow a b := rfl

/-- A vector of 64 channels reshaped to 1 × 64 is that vector seen as a row. -/
theorem row_of_cast (v : FVec Ideal S64 .f32) : shapeCast S1x64 v shapeCasts_S64_S1x64 = row v := by
  funext j
  obtain ⟨z, q, rfl⟩ : ∃ (z : Fin 1) (q : Fin 64), j = ix2 z q := ⟨j 0, j 1, eq_ix2 j⟩
  refine (shapeCast_addUnit_apply ![64] _ shapeCasts_S64_S1x64 (ix2 z q)).trans ?_
  exact congrArg v (funext fun a => by match a with | ⟨0, _⟩ => rfl)

variable (m : (ℓ : Loc nD τ sig) → Buf (Elt Ideal) ℓ) (ρ : Dev nD → PrngReg)

/-- THE KERNEL PROGRAM'S RESULT: the normalisation, with the mean-of-squares form of the variance, of the aggregation of
    the projected node features. -/
theorem value (c : Dev nD) :
    W7 m ρ c (Proc.devRef .tc main_v54)
      = normalize
          (Cert.Gcn.Agg.aggregate aggFacts (proj (m ((c : Thread nD τ).loc main_arg0)) (m ((c : Thread nD τ).loc main_arg2)))
            (m ((c : Thread nD τ).loc main_arg1)))
          (row (m ((c : Thread nD τ).loc main_arg3)))
          (meanRow (Cert.Gcn.Agg.aggregate aggFacts (proj (m ((c : Thread nD τ).loc main_arg0)) (m ((c : Thread nD τ).loc main_arg2)))
            (m ((c : Thread nD τ).loc main_arg1))) (row (m ((c : Thread nD τ).loc main_arg3))))
          (varSqRow (Cert.Gcn.Agg.aggregate aggFacts (proj (m ((c : Thread nD τ).loc main_arg0)) (m ((c : Thread nD τ).loc main_arg2)))
            (m ((c : Thread nD τ).loc main_arg1))) (row (m ((c : Thread nD τ).loc main_arg3))))
          (row (m ((c : Thread nD τ).loc main_arg4))) (row (m ((c : Thread nD τ).loc main_arg5))) := by
  rw [result_read, Cert.KernelIdeal.NormArray.norm_array (V6 m ρ) c, var_read, mean_read, agg_kept2, bias_kept2, scale_kept2,
    shift_kept2, sum_read, sumsq_read, agg_kept1, bias_kept1, scale_kept1, shift_kept1,
    Cert.KernelIdeal.StatsArrays.sum_array (V4 m ρ) c, Cert.KernelIdeal.StatsArrays.sumsq_array (V4 m ρ) c,
    agg_read, bias_read, scale_read, shift_read, proj_read, Cert.KernelIdeal.ProjArray.proj_array (V0 m ρ) c,
    edges_kept0, bias_kept0, scale_kept0, shift_kept0, row_of_cast, row_of_cast, row_of_cast, mean_of_sum, var_of_sums]

end Cert.KernelIdeal.KernelValue

end
-- ==== Proof.RefValue.lean ====
/-
  What the reference program computes, read index by index over the extended reals.

  The reference projects the node features (a general product: entry (r, q) is the sum over k of x(r, k) · w(k, q)),
  aggregates the projected rows over the graph's edges, adds the bias, and normalises every column over its 100000
  rows with the column's mean and the mean of its squared deviations. Its final array is therefore
  Cert.Gcn.normalize of the aggregate A, the bias row, the mean row of A + b, the deviation form of the variance row,
  the scale row and the shift row; and A is Cert.Gcn.Agg.aggregate of the projection and the edge array.

  A host sum over an axis starts from the single-precision zero pattern, which denotes 0, so it is the plain sum.
-/
import proofs.«181618_j8237747274085_1_alg».proof.Proof.RefRead
import proofs.«181618_j8237747274085_1_alg».proof.Proof.Stats
import proofs.«181618_j8237747274085_1_alg».proof.Proof.Aggregate

open scoped BigOperators

noncomputable section

namespace Cert.ReferenceIdeal.RefValue

open Cert.ReferenceIdeal Cert.ReferenceIdeal.Gen Cert.ReferenceIdeal.Read
open Idealize.ShloMosaic Idealize.ShloMosaic.ValueIdx Cert.Gcn

variable (x0 : (⟨S100000x256, .f32⟩ : BufTy).Contents (Elt Ideal)) (x1 : (⟨S2x800000, .i32⟩ : BufTy).Contents (Elt Ideal))
  (x2 : (⟨S256x64, .f32⟩ : BufTy).Contents (Elt Ideal)) (x3 x4 x5 : (⟨S64, .f32⟩ : BufTy).Contents (Elt Ideal))

/-- The aggregate plus the bias at (r, q). -/
theorem biased_apply (r : Fin 100000) (q : Fin 64) :
    val_main_v46 (F := Ideal) x0 x1 x2 x3 (ix2 r q)
      = val_main_v43 (F := Ideal) x0 x1 x2 (ix2 r q) + row x3 (ix2 (0 : Fin 1) q) := by
  rw [val_main_v46_apply, val_main_v45_apply, val_main_v44_apply]
  have e : idx_main_v44 (idx_main_v45 (ix2 r q)) = ix1 q := funext fun a => by match a with | ⟨0, _⟩ => rfl
  rw [e]
  rfl

/-- The mean of column q. -/
theorem mean_apply (q : Fin 64) :
    val_main_v49 (F := Ideal) x0 x1 x2 x3 (ix1 q)
      = meanRow (val_main_v43 (F := Ideal) x0 x1 x2) (row x3) (ix2 (0 : Fin 1) q) := by
  rw [val_main_v49_apply, val_main_v47_apply, val_main_v48_apply, val_main_cst_10_apply, val_main_cst_9_apply]
  show Ideal.div (Ideal.ofBits .f32 0x00000000#32 + ∑ k : Fin 100000, val_main_v46 (F := Ideal) x0 x1 x2 x3 (idx_main_v47 (ix1 q) k))
      (Ideal.ofBits .f32 0x47C35000#32) = _
  rw [Ideal.ofBits_zero_f32, zero_add]
  unfold meanRow colSum
  refine congrArg (fun s => Ideal.div s (Ideal.ofBits .f32 0x47C35000#32)) (Finset.sum_congr rfl fun k _ => ?_)
  have e : idx_main_v47 (ix1 q) k = ix2 k q := funext fun a => by match a with | ⟨0, _⟩ => rfl | ⟨1, _⟩ => rfl
  rw [e]
  exact biased_apply x0 x1 x2 x3 k q

/-- The variance of column q, as the mean of the squared deviations. -/
theorem var_apply (q : Fin 64) :
    val_main_v56 (F := Ideal) x0 x1 x2 x3 (ix1 q)
      = varDevRow (val_main_v43 (F := Ideal) x0 x1 x2) (row x3) (ix2 (0 : Fin 1) q) := by
  rw [val_main_v56_apply, val_main_v54_apply, val_main_v55_apply, val_main_cst_12_apply, val_main_cst_11_apply]
  show Ideal.div (Ideal.ofBits .f32 0x00000000#32 + ∑ k : Fin 100000, val_main_v53 (F := Ideal) x0 x1 x2 x3 (idx_main_v54 (ix1 q) k))
      (Ideal.ofBits .f32 0x47C35000#32) = _
  rw [Ideal.ofBits_zero_f32, zero_add]
  unfold varDevRow
  refine congrArg (fun s => Ideal.div s (Ideal.ofBits .f32 0x47C35000#32)) (Finset.sum_congr rfl fun k _ => ?_)
  have e : idx_main_v54 (ix1 q) k = ix2 k q := funext fun a => by match a with | ⟨0, _⟩ => rfl | ⟨1, _⟩ => rfl
  have e2 : idx_main_v50 (idx_main_v51 (ix2 k q)) = ix1 q := funext fun a => by match a with | ⟨0, _⟩ => rfl
  rw [e, val_main_v53_apply, val_main_v52_apply, val_main_v51_apply, val_main_v50_apply, e2, mean_apply, biased_apply]
  rfl

/-- The reference's final array at (r, q). -/
theorem result_apply (r : Fin 100000) (q : Fin 64) :
    val_main_v71 (F := Ideal) x0 x1 x2 x3 x4 x5 (ix2 r q)
      = normalize (val_main_v43 (F := Ideal) x0 x1 x2) (row x3) (meanRow (val_main_v43 (F := Ideal) x0 x1 x2) (row x3))
          (varDevRow (val_main_v43 (F := Ideal) x0 x1 x2) (row x3)) (row x4) (row x5) (ix2 r q) := by
  have e57 : idx_main_v57 (idx_main_v58 (ix2 r q)) = ix1 q := funext fun a => by match a with | ⟨0, _⟩ => rfl
  have e63 : idx_main_v63 (idx_main_v64 (ix2 r q)) = ix1 q := funext fun a => by match a with | ⟨0, _⟩ => rfl
  have e66 : idx_main_v66 (idx_main_v67 (ix2 r q)) = ix1 q := funext fun a => by match a with | ⟨0, _⟩ => rfl
  have e69 : idx_main_v69 (idx_main_v70 (ix2 r q)) = ix1 q := funext fun a => by match a with | ⟨0, _⟩ => rfl
  rw [val_main_v71_apply, val_main_v70_apply, val_main_v69_apply, e69, val_main_v68_apply, val_main_v67_apply,
    val_main_v66_apply, e66, val_main_v65_apply, val_main_v64_apply, val_main_v63_apply, e63, val_main_v62_apply,
    val_main_v61_apply, val_main_v60_apply, val_main_cst_13_apply, var_apply, val_main_v59_apply, val_main_v58_apply,
    val_main_v57_apply, e57, mean_apply, biased_apply]
  rfl

/-- THE REFERENCE'S FINAL ARRAY is the normalisation, with the deviation form of the variance, of its aggregate. -/
theorem result_eq :
    val_main_v71 (F := Ideal) x0 x1 x2 x3 x4 x5
      = normalize (val_main_v43 (F := Ideal) x0 x1 x2) (row x3) (meanRow (val_main_v43 (F := Ideal) x0 x1 x2) (row x3))
          (varDevRow (val_main_v43 (F := Ideal) x0 x1 x2) (row x3)) (row x4) (row x5) := by
  funext i
  obtain ⟨r, q, rfl⟩ : ∃ (r : Fin 100000) (q : Fin 64), i = ix2 r q := ⟨i 0, i 1, eq_ix2 i⟩
  exact result_apply x0 x1 x2 x3 x4 x5 r q

/-- The reference's projection is the matrix product. -/
theorem projection_eq : val_main_v0 (F := Ideal) x0 x2 = proj x0 x2 := by
  funext i
  obtain ⟨r, q, rfl⟩ : ∃ (r : Fin 100000) (q : Fin 64), i = ix2 r q := ⟨i 0, i 1, eq_ix2 i⟩
  rw [val_main_v0_apply]
  unfold proj
  refine Finset.sum_congr rfl fun k _ => ?_
  have el : lidx_main_v0 (ix2 r q) k = ix2 r k := funext fun a => by match a with | ⟨0, _⟩ => rfl | ⟨1, _⟩ => rfl
  have er : ridx_main_v0 (ix2 r q) k = ix2 k q := funext fun a => by match a with | ⟨0, _⟩ => rfl | ⟨1, _⟩ => rfl
  rw [el, er]

/-- The reference's aggregate is the aggregation of its projection over its edge array, whatever witnesses the
    aggregation's side conditions are given by. -/
theorem aggregate_eq (f : Cert.Gcn.Agg.Facts) :
    val_main_v43 (F := Ideal) x0 x1 x2 = Cert.Gcn.Agg.aggregate f (val_main_v0 (F := Ideal) x0 x2) x1 := rfl

end Cert.ReferenceIdeal.RefValue

end
-- ==== Proof.FiniteInputs.lean ====
/-
  The finiteness test on the inputs, read back.

  The test takes, for each of the five floating-point inputs — the node features, the weights, the bias row, the scale
  row and the shift row —, the absolute value of every entry, compares it with +∞ by "less than", takes the conjunction
  of the comparisons over all entries, and joins the five conjunctions by "and". If the test comes out true, each of the
  five conjunctions is true, so every entry x of each input has |x| < +∞, and an extended real whose absolute value is
  below +∞ is a real number. So each of the five inputs is an array of reals.
-/
import proofs.«181618_j8237747274085_1_alg».proof.Pre_finite_inputs
import proofs.«181618_j8237747274085_1_alg».proof.Proof.LibAllReal
import Idealize.ShloMosaic.Lib.ReduceAll
import Idealize.ShloMosaic.Lib.ValueIdx

noncomputable section

open Idealize.ShloMosaic Idealize.ShloMosaic.ValueIdx

namespace Cert.Proof.FiniteInputs

/-- The shape with no axes has one index. -/
instance scalarIdx_subsingleton : Subsingleton Cert.Pre_finite_inputs.S_.Idx := ⟨fun a b => funext fun d => d.elim0⟩

/-- An entrywise "and" of two arrays of truth values that is true at an index: both arrays are true there. -/
theorem both_of_andi {s : Shape} {x y : IVec s 1} {i : s.Idx} (e : andi x y i = 1#1) : x i = 1#1 ∧ y i = 1#1 :=
  IntOp.andi_eq_one.1 e

/-- If the finiteness test of the five floating-point inputs comes out true, each of them is an array of reals. -/
theorem args_real [Cert.Pre_finite_inputs.Facts]
    (a0 : FVec Ideal Cert.Pre_finite_inputs.S100000x256 .f32) (a1 : IVec Cert.Pre_finite_inputs.S2x800000 32)
    (a2 : FVec Ideal Cert.Pre_finite_inputs.S256x64 .f32) (a3 a4 a5 : FVec Ideal Cert.Pre_finite_inputs.S64 .f32)
    (h : Cert.Pre_finite_inputs.fn (F := Ideal) a0 a1 a2 a3 a4 a5 = (fun _ => 1#1)) :
    Cert.AllReal.AllReal a0 ∧ Cert.AllReal.AllReal a2 ∧ Cert.AllReal.AllReal a3 ∧ Cert.AllReal.AllReal a4 ∧ Cert.AllReal.AllReal a5 := by
  have h0 := congrFun h ix0
  dsimp only [Cert.Pre_finite_inputs.fn, Cert.Pre_finite_inputs.fn_part1] at h0
  obtain ⟨h0123, e5⟩ := both_of_andi h0
  obtain ⟨h012, e4⟩ := both_of_andi h0123
  obtain ⟨h01, e3⟩ := both_of_andi h012
  obtain ⟨e0, e2⟩ := both_of_andi h01
  exact ⟨Cert.AllReal.allReal_of_all_finite (x := a0) (fun i => Cert.AllReal.broadcastInDim_constant_inf _ _ i) _ _ _ ix0 e0,
    Cert.AllReal.allReal_of_all_finite (x := a2) (fun i => Cert.AllReal.broadcastInDim_constant_inf _ _ i) _ _ _ ix0 e2,
    Cert.AllReal.allReal_of_all_finite (x := a3) (fun i => Cert.AllReal.broadcastInDim_constant_inf _ _ i) _ _ _ ix0 e3,
    Cert.AllReal.allReal_of_all_finite (x := a4) (fun i => Cert.AllReal.broadcastInDim_constant_inf _ _ i) _ _ _ ix0 e4,
    Cert.AllReal.allReal_of_all_finite (x := a5) (fun i => Cert.AllReal.broadcastInDim_constant_inf _ _ i) _ _ _ ix0 e5⟩

end Cert.Proof.FiniteInputs

end
-- ==== Proof.lean ====
/-
  A graph-convolution layer followed by batch normalisation: the kernel program against its reference.

  Both programs compute, from node features x (100000 × 256), an edge array, weights w (256 × 64) and three parameter
  vectors b, γ, β of 64 channels:
    h = x · w (entry (r, q) is the sum over k of x(r, k) · w(k, q));
    A = the aggregation of the rows of h over the edges with self loops, each message scaled by the reciprocal square
        roots of its endpoints' degrees (Cert.Gcn.Agg.aggregate; the two programs use the same host operations for it);
    y = A + b, column by column its mean μ and variance v over the 100000 rows;
    the result (y − μ) · (v + ε)^(−1/2) · γ + β.
  The kernel program computes h in a tiled matrix product (rounding its operands to a shorter format first, which is the
  identity on the extended reals), the column sums Σ y and Σ y² in one accumulating pass over row tiles, the variance as
  (Σ y²)/n − μ², and the normalisation tile by tile. The reference computes the variance as (Σ (y − μ)²)/n.

  On the extended reals the two variance formulas agree when every y(r, q) is a real number (Cert.Gcn.normalize_var_forms:
  expanding the square uses ring laws that fail at the infinities). Every y(r, q) is real because the inputs are finite
  (the precondition), a finite sum of products of reals is real, and the aggregation's factors are real
  (Cert.Gcn.Agg.allReal_aggregate). Everything else is the same expression on both sides.

  The three frame claims are the generated frame proofs (the reference's is its run with the result dropped); the ideal
  pass rewrote nothing, so the kernel's idealization is the program's own text read on the extended reals.
-/
import proofs.«181618_j8237747274085_1_alg».proof.Defs
import proofs.«181618_j8237747274085_1_alg».proof.Proof.Gen.Kernel
import proofs.«181618_j8237747274085_1_alg».proof.Proof.Gen.Kernel.Frame
import proofs.«181618_j8237747274085_1_alg».proof.Proof.Gen.KernelIdeal
import proofs.«181618_j8237747274085_1_alg».proof.Proof.Gen.KernelIdeal.Frame
import proofs.«181618_j8237747274085_1_alg».proof.Proof.Gen.ReferenceIdeal
import proofs.«181618_j8237747274085_1_alg».proof.Proof.Gen.Pre_finite_inputs
import proofs.«181618_j8237747274085_1_alg».proof.Proof.KernelResult
import proofs.«181618_j8237747274085_1_alg».proof.Proof.KernelValue
import proofs.«181618_j8237747274085_1_alg».proof.Proof.RefValue
import proofs.«181618_j8237747274085_1_alg».proof.Proof.FiniteInputs
import Idealize.ShloMosaic.Adequacy
import Idealize.ShloMosaic.Init

noncomputable section

namespace Cert.Proof

open Idealize.ShloMosaic Idealize.SL.Sem Cert.Gcn Cert.AllReal Cert.RealSums

/-- The product of two all-real matrices is all-real: every entry is a finite sum of products of reals. -/
theorem allReal_proj {x : SX.Idx → EReal} {w : SW.Idx → EReal} (hx : AllReal x) (hw : AllReal w) : AllReal (proj x w) :=
  fun _ => isReal_sum _ _ fun _ _ => (hx _).mul (hw _)

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the normalisation of the same aggregate: the kernel's with the variance as the mean of the
    squares minus the squared mean, the reference's with the mean of the squared deviations, equal because every entry of
    the aggregate plus the bias is real. -/
theorem algebraic : Cert.algebraic_KernelIdeal_ReferenceIdeal := by
  intro m ρ m' ρ' hpre hagree
  refine ⟨_, (θ_run Cert.KernelIdeal.defs _ _).mono
    (fun _ h c => ⟨(h c).1.trans (Cert.KernelIdeal.KernelValue.value m ρ c), (h c).2⟩)
    (Cert.KernelIdeal.Result.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  obtain ⟨r0, r2, r3, r4, r5⟩ := Cert.Proof.FiniteInputs.args_real _ _ _ _ _ _ (hpre c)
  rw [Cert.ReferenceIdeal.Read.val_main_v71_eq, Cert.ReferenceIdeal.RefValue.result_eq,
    Cert.ReferenceIdeal.RefValue.aggregate_eq _ _ _ Cert.KernelIdeal.HostReads.aggFacts,
    Cert.ReferenceIdeal.RefValue.projection_eq, h0, h1, h2, h3, h4, h5]
  exact (normalize_var_forms (Cert.Gcn.Agg.allReal_aggregate _ (allReal_proj r0 r2) _) (allReal_row r3) _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
